-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x100 : Shape := ⟨2, ![500000, 100]⟩
abbrev S500000 : Shape := ⟨1, ![500000]⟩
abbrev S_ : Shape := ⟨0, ![]⟩

class Facts : Prop where
  bcast_S_S500000x100 : S_.BroadcastsInDim S500000x100 (![] : Fin 0 → Fin S500000x100.rank)
  reducesTo_S500000x100_S_d0_1 : S500000x100.ReducesTo [0, 1] S_
  h_S_ : 0 < S_.numel

variable [Facts]

def fn {F : FTy → Type} [FloatOps F] (main_arg0 : FVec F S500000x100 .f32) (main_arg1 : IVec S500000 32) : IVec S_ 1 :=
  let main_v0 : FVec F S500000x100 .f32 := Host.absf main_arg0
  let main_cst : FVec F S_ .f32 := constant S_ .f32 0x7F800000#32
  let main_v1 : FVec F S500000x100 .f32 := broadcastInDim S500000x100 ![] bcast_S_S500000x100 main_cst
  let main_v2 : IVec S500000x100 1 := cmpf .olt main_v0 main_v1
  let main_c : IVec S_ 1 := constantI S_ 1 1#1
  let main_v3 : IVec S_ 1 := (fun x v => Host.reduce IntOp.andi x v reducesTo_S500000x100_S_d0_1 h_S_) main_v2 main_c
  main_v3
-- ==== Kernel.lean ====
abbrev S500000x100 : Shape := ⟨2, ![500000, 100]⟩
abbrev S500000 : Shape := ⟨1, ![500000]⟩
abbrev S500000x1 : Shape := ⟨2, ![500000, 1]⟩
abbrev S2x15x100 : Shape := ⟨3, ![2, 15, 100]⟩
abbrev S25000x100 : Shape := ⟨2, ![25000, 100]⟩
abbrev S25000x1 : Shape := ⟨2, ![25000, 1]⟩
abbrev S1x15x100 : Shape := ⟨3, ![1, 15, 100]⟩
abbrev S15x100 : Shape := ⟨2, ![15, 100]⟩
abbrev S25000 : Shape := ⟨1, ![25000]⟩
abbrev S1x100 : Shape := ⟨2, ![1, 100]⟩
abbrev S100 : Shape := ⟨1, ![100]⟩
abbrev S_ : Shape := ⟨0, ![]⟩

abbrev nBuf : Space → Nat
  | .hbm => 16
  | .vmem => 7
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S500000x1, .i32⟩
  | .hbm, ⟨3, _⟩ => ⟨S2x15x100, .f32⟩
  | .hbm, ⟨4, _⟩ => ⟨S_, .f32⟩
  | .hbm, ⟨5, _⟩ => ⟨S15x100, .f32⟩
  | .hbm, ⟨6, _⟩ => ⟨S15x100, .f32⟩
  | .hbm, ⟨7, _⟩ => ⟨S_, .f32⟩
  | .hbm, ⟨8, _⟩ => ⟨S100, .f32⟩
  | .hbm, ⟨9, _⟩ => ⟨S_, .f32⟩
  | .hbm, ⟨10, _⟩ => ⟨S100, .f32⟩
  | .hbm, ⟨11, _⟩ => ⟨S100, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S25000x100, .f32⟩
  | .local _ .vmem, ⟨1, _⟩ => ⟨S25000x100, .f32⟩
  | .local _ .vmem, ⟨2, _⟩ => ⟨S25000x1, .i32⟩
  | .local _ .vmem, ⟨3, _⟩ => ⟨S25000x1, .i32⟩
  | .local _ .vmem, ⟨4, _⟩ => ⟨S1x15x100, .f32⟩
  | .local _ .vmem, ⟨5, _⟩ => ⟨S1x15x100, .f32⟩
  | .local _ .vmem, ⟨6, _⟩ => ⟨S15x100, .f32⟩
  | _, _ => ⟨S500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32_89 : BitVec 32 := 9#32
  let v202 : BitVec 1 := Scalar.cmpi .eq arg1 c9_i32_89
  let v203 : BitVec 32 := Scalar.extui v202
  let c0_i32_90 : BitVec 32 := 0#32
  let v204 : BitVec 1 := Scalar.cmpi .ne v203 c0_i32_90
  v204

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S500000_S500000x1 : S500000.ShapeCasts S500000x1
  inb_S15x100_S15x100_0_0 : ∀ a, (![0, 0] : Fin 2 → Nat) a + S15x100.size a ≤ S15x100.size a
  h_S15x100 : 0 < S15x100.numel
  shapeCasts_S15x100_S15x100 : S15x100.ShapeCasts S15x100
  inb_S25000x100_S25000x100_0_0 : ∀ a, (![0, 0] : Fin 2 → Nat) a + S25000x100.size a ≤ S25000x100.size a
  h_S25000x100 : 0 < S25000x100.numel
  inb_S25000x1_S25000x1_0_0 : ∀ a, (![0, 0] : Fin 2 → Nat) a + S25000x1.size a ≤ S25000x1.size a
  h_S25000x1 : 0 < S25000x1.numel
  shapeCasts_S25000x1_S25000x1 : S25000x1.ShapeCasts S25000x1
  reduces_S25000x100_S25000 : S25000x100.Reduces [1] S25000
  shapeCasts_S25000_S25000x1 : S25000.ShapeCasts S25000x1
  broadcasts_S25000x1_S25000x100 : S25000x1.Broadcasts S25000x100
  iota_S25000x100_d1_w32 : S25000x100.Iotas .tc 32 [1]
  natLt_1_32 : 1 < 32
  inb_S15x100_S1x100_0_0 : ∀ a, (![0, 0] : Fin 2 → Nat) a + S1x100.size a ≤ S15x100.size a
  h_S1x100 : 0 < S1x100.numel
  shapeCasts_S1x100_S100 : S1x100.ShapeCasts S100
  reduces_S25000x100_S100 : S25000x100.Reduces [0] S100
  shapeCasts_S100_S1x100 : S100.ShapeCasts S1x100
  inb_S15x100_S1x100_1_0 : ∀ a, (![1, 0] : Fin 2 → Nat) a + S1x100.size a ≤ S15x100.size a
  inb_S15x100_S1x100_2_0 : ∀ a, (![2, 0] : Fin 2 → Nat) a + S1x100.size a ≤ S15x100.size a
  inb_S15x100_S1x100_3_0 : ∀ a, (![3, 0] : Fin 2 → Nat) a + S1x100.size a ≤ S15x100.size a
  inb_S15x100_S1x100_4_0 : ∀ a, (![4, 0] : Fin 2 → Nat) a + S1x100.size a ≤ S15x100.size a
  inb_S15x100_S1x100_5_0 : ∀ a, (![5, 0] : Fin 2 → Nat) a + S1x100.size a ≤ S15x100.size a
  inb_S15x100_S1x100_6_0 : ∀ a, (![6, 0] : Fin 2 → Nat) a + S1x100.size a ≤ S15x100.size a
  inb_S15x100_S1x100_7_0 : ∀ a, (![7, 0] : Fin 2 → Nat) a + S1x100.size a ≤ S15x100.size a
  inb_S15x100_S1x100_8_0 : ∀ a, (![8, 0] : Fin 2 → Nat) a + S1x100.size a ≤ S15x100.size a
  inb_S15x100_S1x100_9_0 : ∀ a, (![9, 0] : Fin 2 → Nat) a + S1x100.size a ≤ S15x100.size a
  inb_S15x100_S1x100_10_0 : ∀ a, (![10, 0] : Fin 2 → Nat) a + S1x100.size a ≤ S15x100.size a
  inb_S15x100_S1x100_11_0 : ∀ a, (![11, 0] : Fin 2 → Nat) a + S1x100.size a ≤ S15x100.size a
  inb_S15x100_S1x100_12_0 : ∀ a, (![12, 0] : Fin 2 → Nat) a + S1x100.size a ≤ S15x100.size a
  inb_S15x100_S1x100_13_0 : ∀ a, (![13, 0] : Fin 2 → Nat) a + S1x100.size a ≤ S15x100.size a
  inb_S15x100_S1x100_14_0 : ∀ a, (![14, 0] : Fin 2 → Nat) a + S1x100.size a ≤ S15x100.size a
  shapeCasts_S15x100_S1x15x100 : S15x100.ShapeCasts S1x15x100
  inb_S1x15x100_S1x15x100_0_0_0 : ∀ a, (![0, 0, 0] : Fin 3 → Nat) a + S1x15x100.size a ≤ S1x15x100.size a
  h_S1x15x100 : 0 < S1x15x100.numel
  reducesTo_S2x15x100_S15x100_d0 : S2x15x100.ReducesTo [0] S15x100
  h_S_ : 0 < S_.numel
  reducesTo_S15x100_S100_d0 : S15x100.ReducesTo [0] S100
  bcast_S_S100 : S_.BroadcastsInDim S100 (![] : Fin 0 → Fin S100.rank)
  reducesTo_S100_S_d0 : S100.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x100.size a ≤ S500000x100.size a
  hwx0_0 : ∀ i : grid0.Coords, EltTy.bits .f32 = 32 ∨ (Rect.block (s := S500000x100) S25000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x1.size a ≤ S500000x1.size a
  hwx0_1 : ∀ i : grid0.Coords, EltTy.bits .i32 = 32 ∨ (Rect.block (s := S500000x1) S25000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x100.size a ≤ S2x15x100.size a
  hwx0_2 : ∀ i : grid0.Coords, EltTy.bits .f32 = 32 ∨ (Rect.block (s := S2x15x100) S1x15x100.size (cc0_transform_2 i) (hinb0_2 i)).WholeWords (EltTy.packing .f32)

variable [Facts₀]

abbrev win0_0 : Pipeline.Window sig grid0 :=
  Pipeline.Window.ofSpec (Memref.whole main_arg0) S25000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S25000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x15x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S500000x100 : Shape := ⟨2, ![500000, 100]⟩
abbrev S500000 : Shape := ⟨1, ![500000]⟩
abbrev S_ : Shape := ⟨0, ![]⟩
abbrev S500000x1 : Shape := ⟨2, ![500000, 1]⟩
abbrev S100 : Shape := ⟨1, ![100]⟩
abbrev S1x100 : Shape := ⟨2, ![1, 100]⟩
abbrev S50000000 : Shape := ⟨1, ![50000000]⟩
abbrev S1500 : Shape := ⟨1, ![1500]⟩
abbrev S50000000x1 : Shape := ⟨2, ![50000000, 1]⟩
abbrev S100x15 : Shape := ⟨2, ![100, 15]⟩

abbrev nBuf : Space → Nat
  | .hbm => 80
  | .vmem => 0
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S_, .f32⟩
  | .hbm, ⟨3, _⟩ => ⟨S500000, .f32⟩
  | .hbm, ⟨4, _⟩ => ⟨S_, .f32⟩
  | .hbm, ⟨5, _⟩ => ⟨S500000, .f32⟩
  | .hbm, ⟨6, _⟩ => ⟨S500000, .f32⟩
  | .hbm, ⟨7, _⟩ => ⟨S500000x1, .f32⟩
  | .hbm, ⟨8, _⟩ => ⟨S500000x100, .f32⟩
  | .hbm, ⟨9, _⟩ => ⟨S500000x100, .f32⟩
  | .hbm, ⟨10, _⟩ => ⟨S500000x100, .f32⟩
  | .hbm, ⟨11, _⟩ => ⟨S_, .f32⟩
  | .hbm, ⟨12, _⟩ => ⟨S500000, .f32⟩
  | .hbm, ⟨13, _⟩ => ⟨S500000x1, .f32⟩
  | .hbm, ⟨14, _⟩ => ⟨S500000x100, .f32⟩
  | .hbm, ⟨15, _⟩ => ⟨S500000x100, .f32⟩
  | .hbm, ⟨16, _⟩ => ⟨S_, .f32⟩
  | .hbm, ⟨17, _⟩ => ⟨S500000x100, .f32⟩
  | .hbm, ⟨18, _⟩ => ⟨S500000x100, .i1⟩
  | .hbm, ⟨19, _⟩ => ⟨S_, .f32⟩
  | .hbm, ⟨20, _⟩ => ⟨S500000x100, .f32⟩
  | .hbm, ⟨21, _⟩ => ⟨S500000x100, .f32⟩
  | .hbm, ⟨22, _⟩ => ⟨S500000x100, .f32⟩
  | .hbm, ⟨23, _⟩ => ⟨S500000x100, .i32⟩
  | .hbm, ⟨24, _⟩ => ⟨S_, .i32⟩
  | .hbm, ⟨25, _⟩ => ⟨S500000x100, .i32⟩
  | .hbm, ⟨26, _⟩ => ⟨S500000x100, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S500000x100, .i32⟩
  | .hbm, ⟨31, _⟩ => ⟨S500000x100, .i32⟩
  | .hbm, ⟨32, _⟩ => ⟨S_, .i32⟩
  | .hbm, ⟨33, _⟩ => ⟨S500000x100, .i32⟩
  | .hbm, ⟨34, _⟩ => ⟨S500000x100, .i32⟩
  | .hbm, ⟨35, _⟩ => ⟨S100, .i32⟩
  | .hbm, ⟨36, _⟩ => ⟨S1x100, .i32⟩
  | .hbm, ⟨37, _⟩ => ⟨S_, .i32⟩
  | .hbm, ⟨38, _⟩ => ⟨S1x100, .i32⟩
  | .hbm, ⟨39, _⟩ => ⟨S1x100, .i32⟩
  | .hbm, ⟨40, _⟩ => ⟨S500000x100, .i32⟩
  | .hbm, ⟨41, _⟩ => ⟨S500000x100, .i32⟩
  | .hbm, ⟨42, _⟩ => ⟨S50000000, .i32⟩
  | .hbm, ⟨43, _⟩ => ⟨S500000x100, .f32⟩
  | .hbm, ⟨44, _⟩ => ⟨S500000x1, .i32⟩
  | .hbm, ⟨45, _⟩ => ⟨S500000x100, .i32⟩
  | .hbm, ⟨46, _⟩ => ⟨S500000x100, .i32⟩
  | .hbm, ⟨47, _⟩ => ⟨S500000x100, .i1⟩
  | .hbm, ⟨48, _⟩ => ⟨S500000x100, .f32⟩
  | .hbm, ⟨49, _⟩ => ⟨S50000000, .f32⟩
  | .hbm, ⟨50, _⟩ => ⟨S_, .f32⟩
  | .hbm, ⟨51, _⟩ => ⟨S1500, .f32⟩
  | .hbm, ⟨52, _⟩ => ⟨S50000000x1, .i32⟩
  | .hbm, ⟨53, _⟩ => ⟨S1500, .f32⟩
  | .hbm, ⟨54, _⟩ => ⟨S100x15, .f32⟩
  | .hbm, ⟨55, _⟩ => ⟨S500000x100, .f32⟩
  | .hbm, ⟨56, _⟩ => ⟨S50000000, .f32⟩
  | .hbm, ⟨57, _⟩ => ⟨S_, .f32⟩
  | .hbm, ⟨58, _⟩ => ⟨S1500, .f32⟩
  | .hbm, ⟨59, _⟩ => ⟨S50000000x1, .i32⟩
  | .hbm, ⟨60, _⟩ => ⟨S1500, .f32⟩
  | .hbm, ⟨61, _⟩ => ⟨S100x15, .f32⟩
  | .hbm, ⟨62, _⟩ => ⟨S500000x100, .f32⟩
  | .hbm, ⟨63, _⟩ => ⟨S50000000, .f32⟩
  | .hbm, ⟨64, _⟩ => ⟨S_, .f32⟩
  | .hbm, ⟨65, _⟩ => ⟨S1500, .f32⟩
  | .hbm, ⟨66, _⟩ => ⟨S50000000x1, .i32⟩
  | .hbm, ⟨67, _⟩ => ⟨S1500, .f32⟩
  | .hbm, ⟨68, _⟩ => ⟨S100x15, .f32⟩
  | .hbm, ⟨69, _⟩ => ⟨S100x15, .f32⟩
  | .hbm, ⟨70, _⟩ => ⟨S100x15, .f32⟩
  | .hbm, ⟨71, _⟩ => ⟨S_, .f32⟩
  | .hbm, ⟨72, _⟩ => ⟨S100, .f32⟩
  | .hbm, ⟨73, _⟩ => ⟨S_, .f32⟩
  | .hbm, ⟨74, _⟩ => ⟨S100, .f32⟩
  | .hbm, ⟨75, _⟩ => ⟨S100, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_c_5 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  reducesTo_S500000x100_S500000_d1 : S500000x100.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x100_0_1 : S500000x1.BroadcastsInDim S500000x100 (![0, 1] : Fin 2 → Fin S500000x100.rank)
  bcast_S_S500000x100 : S_.BroadcastsInDim S500000x100 (![] : Fin 0 → Fin S500000x100.rank)
  bcast_S100_S1x100_1 : S100.BroadcastsInDim S1x100 (![1] : Fin 1 → Fin S1x100.rank)
  bcast_S_S1x100 : S_.BroadcastsInDim S1x100 (![] : Fin 0 → Fin S1x100.rank)
  bcast_S1x100_S500000x100_0_1 : S1x100.BroadcastsInDim S500000x100 (![0, 1] : Fin 2 → Fin S500000x100.rank)
  shapeCasts_S500000x100_S50000000 : S500000x100.ShapeCasts S50000000
  bcast_S_S1500 : S_.BroadcastsInDim S1500 (![] : Fin 0 → Fin S1500.rank)
  bcast_S50000000_S50000000x1_0 : S50000000.BroadcastsInDim S50000000x1 (![0] : Fin 1 → Fin S50000000x1.rank)
  shapeCasts_S1500_S100x15 : S1500.ShapeCasts S100x15
  reducesTo_S100x15_S100_d1 : S100x15.ReducesTo [1] S100
  bcast_S_S100 : S_.BroadcastsInDim S100 (![] : Fin 0 → Fin S100.rank)
  reducesTo_S100_S_d0 : S100.ReducesTo [0] S_
  scatter_S1500_S50000000x1_S50000000_n_0_0_1_wf : ScatterDims.WF S1500 S50000000x1 S50000000 [] [0] [0] 1

variable [Facts₀]

def scatter_S1500_S50000000x1_S50000000_n_0_0_1 : ScatterDims S1500 S50000000x1 S50000000 where
  updateWindowDims := []
  insertedWindowDims := [0]
  scatterDimsToOperandDims := [0]
  indexVectorDim := 1
  wf := scatter_S1500_S50000000x1_S50000000_n_0_0_1_wf

class Facts : Prop extends Facts₀ where

variable [Facts]
-- ==== Proof.Finite.lean ====
/-
  From the precondition to real logits.

  The precondition says that the conjunction, over every entry of the logit array, of |x| < +inf is true.  A
  conjunction that is true is true at every entry, and an extended real whose absolute value lies below +inf is
  neither infinity: it is a real.
-/
import proofs.«153686_j5634997093213_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Ece

open Idealize.ShloMosaic Idealize.ShloMosaic.ValueIdx

instance : Subsingleton Cert.Pre_finite_inputs.S_.Idx := ⟨fun a b => funext fun d => d.elim0⟩

/-- The word of +inf denotes the top of the extended reals. -/
theorem posInf_eq_top : Ideal.ofBits .f32 0x7F800000#32 = (⊤ : EReal) := by
  simp [Ideal.ofBits, Ideal.ieee]

/-- An extended real whose absolute value is below +inf is a real. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- Under the precondition every logit is a real. -/
theorem real_of_pre [Cert.Pre_finite_inputs.Facts]
    (x : FVec Ideal Cert.Pre_finite_inputs.S500000x100 .f32) (l : IVec Cert.Pre_finite_inputs.S500000 32)
    (h : Cert.Pre_finite_inputs.fn (F := Ideal) x l = (fun _ => 1#1)) :
    ∀ i, ∃ r : ℝ, x i = (r : EReal) := by
  intro i
  have h0 := congrFun h ValueIdx.ix0
  dsimp only [Cert.Pre_finite_inputs.fn] at h0
  have hi := Host.reduce_andi_all _ _ _ _ _ h0 i
  refine real_of_abs_lt_top (x i) ?_
  rw [← posInf_eq_top]
  exact hi

end Cert.Ece

end
-- ==== Proof.Spec.lean ====
/-
  The class-wise expected calibration error, index by index, over the extended reals.

  For a row of 100 logits the probabilities are the softmax taken relative to the row's maximum; each
  probability p falls in bin clamp(ceil(15 p) - 1, 0, 14); a row contributes p - [label = class] to the cell
  (bin, class) of its own bin when p > 0, and nothing elsewhere.  The cells are summed over all 500000 rows;
  a class's error is the sum over the 15 bins of the cells' absolute values divided by the number of rows, and
  the scalar is the mean of the 100 class errors.
-/
import Idealize.ShloMosaic.PureOps.Ideal
import Idealize.ShloMosaic.PureOps.Ideal.Laws
import Idealize.ShloMosaic.Lib.ValueIdx

noncomputable section

namespace Cert.Ece

open Idealize.ShloMosaic Idealize.ShloMosaic.ValueIdx

/-- The maximum of a row, folded from -inf and taken once more against -inf (as both programs spell it). -/
def rowMax (xr : Fin 100 → EReal) : EReal :=
  max (Ideal.ofBits .f32 0xFF800000#32)
    ((Finset.univ : Finset (Fin 100)).fold max (Ideal.ofBits .f32 0xFF800000#32) xr)

/-- exp of a logit relative to its row's maximum. -/
def rowExp (xr : Fin 100 → EReal) (k : Fin 100) : EReal := Ideal.exp (xr k - rowMax xr)

/-- The softmax probability of class k in a row. -/
def prob (xr : Fin 100 → EReal) (k : Fin 100) : EReal := Ideal.div (rowExp xr k) (∑ k' : Fin 100, rowExp xr k')

/-- The bin of a probability: clamp(ceil(15 p) - 1, 0, 14), as a 32-bit word. -/
def binOf (p : EReal) : BitVec 32 :=
  IntOp.minsi 14#32 (IntOp.maxsi 0#32
    (IntOp.subi (Ideal.fptosi 32 (Ideal.liftRound Int.ceil (p * Ideal.ofBits .f32 0x41700000#32))) 1#32))

/-- Whether a row's label is class k. -/
def hit (l : BitVec 32) (k : Fin 100) : BitVec 1 := IntOp.cmpi .eq l (BitVec.ofNat 32 k.val)

/-- The signed difference a row contributes for class k: p - [label = k] when p > 0, else 0. -/
def diff (xr : Fin 100 → EReal) (l : BitVec 32) (k : Fin 100) : EReal :=
  Scalar.select (Ideal.cmp .ogt (prob xr k) 0) (prob xr k - (((hit l k).toNat : ℝ) : EReal)) 0

/-- What a row contributes to the cell (bin b, class k). -/
def cell (xr : Fin 100 → EReal) (l : BitVec 32) (b : Fin 15) (k : Fin 100) : EReal :=
  Scalar.select (IntOp.cmpi .eq (binOf (prob xr k)) (BitVec.ofNat 32 b.val)) (diff xr l k) 0

/-- The cell (bin b, class k) summed over all rows of the batch. -/
def total (x : (⟨2, ![500000, 100]⟩ : Shape).Idx → EReal) (lab : (⟨1, ![500000]⟩ : Shape).Idx → BitVec 32)
    (b : Fin 15) (k : Fin 100) : EReal :=
  ∑ n : Fin 500000, cell (fun k' => x (ix2 n k')) (lab (ix1 n)) b k

/-- The per-class error: the bins' absolute cells summed, over the number of rows. -/
def perClass (x : (⟨2, ![500000, 100]⟩ : Shape).Idx → EReal) (lab : (⟨1, ![500000]⟩ : Shape).Idx → BitVec 32) :
    (⟨1, ![100]⟩ : Shape).Idx → EReal := fun j =>
  Ideal.div (∑ b : Fin 15, max (total x lab b (j 0)) (-(total x lab b (j 0)))) (Ideal.ofBits .f32 0x48F42400#32)

/-- The scalar error: the mean of the per-class errors. -/
def sce (x : (⟨2, ![500000, 100]⟩ : Shape).Idx → EReal) (lab : (⟨1, ![500000]⟩ : Shape).Idx → BitVec 32) :
    (⟨0, ![]⟩ : Shape).Idx → EReal := fun _ =>
  Ideal.div (∑ k : Fin 100, perClass x lab (ix1 k)) (Ideal.ofBits .f32 0x42C80000#32)

end Cert.Ece

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.BlockBase.lean ====
/-
  One block of 25000 rows: where a reduction along the classes or along the rows inserts its coordinate, a per-row
  value laid along the classes, and the row maximum.
-/
import proofs.«153686_j5634997093213_2_alg».proof.Proof.Spec
import proofs.«153686_j5634997093213_2_alg».proof.Proof.LibColumnLayout
import proofs.«153686_j5634997093213_2_alg».proof.Proof.Gen.KernelIdeal.Skeleton
import Idealize.ShloMosaic.Lib.ValueLayout
import Idealize.ShloMosaic.Lib.Pipeline.Value
import Idealize.ShloMosaic.PureOps.Ideal.Laws

noncomputable section

namespace Cert.Ece.Block

open Idealize.ShloMosaic Idealize.ShloMosaic.ValueIdx Cert.KernelIdeal Cert.KernelIdeal.Gen Cert.ColumnLayout

/-- Reducing a [25000, 100] block along its classes, the element inserted at class k of row r is (r, k). -/
theorem lift_cls (h : S25000x100.Reduces [1] S25000) (r : Fin 25000) (k : Fin 100) :
    h.lift (ix1 r) k = ix2 r k := by
  funext a
  match a with
  | ⟨0, _⟩ => exact Fin.ext rfl
  | ⟨1, _⟩ => exact Fin.ext rfl

/-- Reducing it along its rows, the element inserted at row r of class k is (r, k). -/
theorem lift_row (h : S25000x100.Reduces [0] S100) (k : Fin 100) (r : Fin 25000) :
    h.lift (ix1 k) r = ix2 r k := by
  funext a
  match a with
  | ⟨0, _⟩ => exact Fin.ext rfl
  | ⟨1, _⟩ => exact Fin.ext rfl

/-- A per-row value kept as a column and laid along the classes reads, at (r, k), the value of row r. -/
theorem col_apply {α : Type} (v : S25000.Idx → α) (h1 : S25000.ShapeCasts S25000x1) (h2 : S25000x1.Broadcasts S25000x100)
    (r : Fin 25000) (k : Fin 100) :
    broadcastTo S25000x100 (shapeCast S25000x1 v h1) h2 (ix2 r k) = v (ix1 r) :=
  (broadcastTo_a1_ab_apply _ h2 r k).trans (shapeCast_a_a1_apply v h1 r 0)

/-- The row maximum as the kernel takes it. -/
theorem rowMax_apply (x0 : FVec Ideal S25000x100 .f32) (h : S25000x100.Reduces [1] S25000) (hφ : FKind.Formats .f32)
    (hacc : (0xFF800000#32 : BitVec 32) = FKind.maximumf.neutral .f32 hφ) (r : Fin 25000) :
    max (Ideal.ofBits .f32 0xFF800000#32) (multiReduction .maximumf [1] S25000 x0 0xFF800000#32 h hφ hacc (ix1 r))
      = rowMax (fun k => x0 (ix2 r k)) := by
  unfold rowMax
  refine congrArg (max _) ?_
  refine (Ideal.multiReduction_maximumf_single x0 _ h hφ hacc (ix1 r)).trans ?_
  refine congrArg (fun f => (Finset.univ : Finset (Fin 100)).fold max (Ideal.ofBits .f32 0xFF800000#32) f) ?_
  funext k
  exact congrArg x0 (lift_cls h r k)

end Cert.Ece.Block

end
-- ==== Proof.Accum.lean ====
/-
  What one grid point adds to the accumulator: for bin b and class k, the sum over the block's 25000 rows of the
  signed difference where the row's bin for class k is b, and zero elsewhere.
-/
import proofs.«153686_j5634997093213_2_alg».proof.Proof.BlockBase

noncomputable section

namespace Cert.Ece.Block
open Idealize.ShloMosaic Idealize.ShloMosaic.ValueIdx Cert.KernelIdeal Cert.KernelIdeal.Gen

/-- The block's contribution to cell (b, k), from the block's bin indices and signed differences. -/
def cellSum (bins : S25000x100.Idx → BitVec 32) (d : S25000x100.Idx → EReal) (b : Fin 15) (k : Fin 100) : EReal :=
  ∑ r : Fin 25000, Scalar.select (IntOp.cmpi .eq (bins (ix2 r k)) (BitVec.ofNat 32 b.val)) (d (ix2 r k))
    (Ideal.ofBits .f32 0x00000000#32)

/-- The accumulator after a point: what it held plus the block's contribution, cell by cell. -/
def accum (bins : S25000x100.Idx → BitVec 32) (d : S25000x100.Idx → EReal) (acc : S15x100.Idx → EReal) :
    S15x100.Idx → EReal := fun y => acc y + cellSum bins d (y 0) (y 1)

theorem accum_apply (bins : S25000x100.Idx → BitVec 32) (d : S25000x100.Idx → EReal) (acc : S15x100.Idx → EReal)
    (b : Fin 15) (k : Fin 100) : accum bins d acc (ix2 b k) = acc (ix2 b k) + cellSum bins d b k := rfl

end Cert.Ece.Block
end
-- ==== Proof.BodyCases.lean ====
/-
  What the kernel body leaves, case by case: at a core's first point the accumulator is the block's contribution
  over zero; at every later point it is what the point before left plus the block's contribution; at a core's
  last point the output block is that accumulator.
-/
import proofs.«153686_j5634997093213_2_alg».proof.Proof.Accum
import proofs.«153686_j5634997093213_2_alg».proof.Proof.Gen.KernelIdeal.Frame
import Idealize.ShloMosaic.Lib.Pipeline.Value
import Idealize.ShloMosaic.Lib.ValueLayout

set_option maxRecDepth 16384

noncomputable section

namespace Cert.Ece.Block
open Idealize.ShloMosaic Idealize.ShloMosaic.TcCoe Idealize.ShloMosaic.Tactic Idealize.ShloMosaic.ValueIdx
open Idealize.SL Idealize.SL.Sem
open Cert.KernelIdeal Cert.KernelIdeal.Gen

/-- The accumulator a core starts from. -/
def zeroAcc : S15x100.Idx → EReal := fun _ => Ideal.ofBits .f32 0x00000000#32

theorem hz2 : (![0, 0] : Fin 2 → ℕ) = fun _ => 0 := by
  funext a; match a with
  | ⟨0, _⟩ => rfl
  | ⟨1, _⟩ => rfl

/-- A row store's rectangle places (u, k) at (b, k). -/
theorem row_emb (bn : ℕ) (hb : bn < 15) (sz : Fin 2 → ℕ) (hsz : sz = ![1, 100])
    (inb : ∀ a, (![bn, 0] : Fin 2 → ℕ) a + sz a ≤ S15x100.size a) (u : Fin 1) (k : Fin 100) :
    (Rect.unit (s := S15x100) ![bn, 0] sz inb).idx (by subst hsz; exact ix2 u k) = ix2 (⟨bn, hb⟩ : Fin 15) k := by
  subst hsz
  funext a
  match a with
  | ⟨0, _⟩ => exact Fin.ext (by show bn + 1 * u.val = bn; omega)
  | ⟨1, _⟩ => exact Fin.ext (by show 0 + 1 * k.val = k.val; omega)

/-- One row store of the body: row b of the accumulator as loaded, plus the sum over the block's rows of the
    signed difference where the bin is b — the accumulator's new contents on that row. -/
theorem piece_ok (bins : S25000x100.Idx → BitVec 32) (d : S25000x100.Idx → EReal) (acc : S15x100.Idx → EReal)
    (bn : ℕ) (hb : bn < 15)
    (inb : ∀ a, (![bn, 0] : Fin 2 → ℕ) a + (![1, 100] : Fin 2 → ℕ) a ≤ S15x100.size a)
    (inb' : ∀ a, (![bn, 0] : Fin 2 → ℕ) a + S1x100.size a ≤ S15x100.size a)
    (h1 : S1x100.ShapeCasts S100) (h2 : S100.ShapeCasts S1x100) (h : S25000x100.Reduces [0] S100)
    (hφ : FKind.Formats .f32) (hacc : (0x00000000#32 : BitVec 32) = FKind.add.neutral .f32 hφ)
    (x : (Rect.unit (s := S15x100) ![bn, 0] ![1, 100] inb).shape.Idx) :
    shapeCast S1x100 (addf (F := Ideal) (φ := .f32) (shapeCast S100 (View.ld (Val := Elt Ideal) (e' := EltTy.f32) acc (Rect.unit (s := S15x100) ![bn, 0] S1x100.size inb') : S1x100.Idx → EReal) h1)
      (multiReduction .add [0] S100 (select (cmpi .eq bins (broadcast S25000x100 (BitVec.ofNat 32 bn))) d
        (broadcast S25000x100 (Scalar.ofBits (F := Ideal) .f32 0x00000000#32))) 0x00000000#32 h hφ hacc)) h2 x
      = accum bins d acc ((Rect.unit (s := S15x100) ![bn, 0] ![1, 100] inb).emb x) := by
  obtain ⟨u, k, rfl⟩ : ∃ (u : Fin 1) (k : Fin 100), x = ix2 u k := ⟨x 0, x 1, eq_ix2 x⟩
  have he : (Rect.unit (s := S15x100) ![bn, 0] ![1, 100] inb).emb (ix2 u k) = ix2 (⟨bn, hb⟩ : Fin 15) k :=
    row_emb bn hb _ rfl inb u k
  rw [he, accum_apply]
  refine (shapeCast_a_1a_apply _ h2 u k).trans ?_
  refine (addf_apply _ _ _).trans (congrArg₂ (· + ·) ?_ ?_)
  · refine (shapeCast_1a_a_apply _ h1 k).trans ?_
    exact congrArg acc (row_emb bn hb _ rfl inb' 0 k)
  · unfold cellSum
    refine (Ideal.multiReduction_add_single _ _ h hφ hacc (ix1 k)).trans (Finset.sum_congr rfl fun r _ => ?_)
    exact congrArg _ (lift_row h k r)

theorem hz3 : (![0, 0, 0] : Fin 3 → ℕ) = fun _ => 0 := by
  funext a; match a with
  | ⟨0, _⟩ => rfl
  | ⟨1, _⟩ => rfl
  | ⟨2, _⟩ => rfl

/-- One row of the body, from the row as loaded: the loaded value at class k plus the block's contribution to
    cell (b, k). -/
theorem row_core (bins : S25000x100.Idx → BitVec 32) (d : S25000x100.Idx → EReal) (vrow : S1x100.Idx → EReal)
    (bn : ℕ) (hb : bn < 15)
    (h1 : S1x100.ShapeCasts S100) (h2 : S100.ShapeCasts S1x100) (h : S25000x100.Reduces [0] S100)
    (hφ : FKind.Formats .f32) (hacc : (0x00000000#32 : BitVec 32) = FKind.add.neutral .f32 hφ)
    (u : Fin 1) (k : Fin 100) :
    shapeCast S1x100 (addf (F := Ideal) (φ := .f32) (shapeCast S100 vrow h1)
      (multiReduction .add [0] S100 (select (cmpi .eq bins (broadcast S25000x100 (BitVec.ofNat 32 bn))) d
        (broadcast S25000x100 (Scalar.ofBits (F := Ideal) .f32 0x00000000#32))) 0x00000000#32 h hφ hacc)) h2 (ix2 u k)
      = vrow (ix2 (0 : Fin 1) k) + cellSum bins d (⟨bn, hb⟩ : Fin 15) k := by
  refine (shapeCast_a_1a_apply _ h2 u k).trans ?_
  refine (addf_apply _ _ _).trans (congrArg₂ (· + ·) (shapeCast_1a_a_apply _ h1 k) ?_)
  unfold cellSum
  refine (Ideal.multiReduction_add_single _ _ h hφ hacc (ix1 k)).trans (Finset.sum_congr rfl fun r _ => ?_)
  exact congrArg _ (lift_row h k r)

/-- After the zero fill and the row stores of bins below j: rows below j hold the block's contribution over zero,
    the rows from j on still hold zero. -/
def Filled (bins : S25000x100.Idx → BitVec 32) (d : S25000x100.Idx → EReal)
    (L : List (View.Piece (Elt Ideal) S15x100 .f32)) (j : ℕ) : Prop :=
  ∀ (b : Fin 15) (k : Fin 100), View.canon L (ix2 b k)
    = if b.val < j then accum bins d zeroAcc (ix2 b k) else zeroAcc (ix2 b k)

theorem filled_base (bins : S25000x100.Idx → BitVec 32) (d : S25000x100.Idx → EReal)
    (inb : ∀ a, (![0, 0] : Fin 2 → ℕ) a + S15x100.size a ≤ S15x100.size a) :
    Filled bins d [⟨Rect.unit (s := S15x100) ![0, 0] S15x100.size inb, k0_pay5 (F := Ideal)⟩] 0 := fun b k => by
  rw [View.canon_unit_zero hz2, if_neg (Nat.not_lt_zero _)]
  rfl

theorem filled_step (bins : S25000x100.Idx → BitVec 32) (d : S25000x100.Idx → EReal)
    (v : View sig .tc .vmem S15x100 .f32) (L : List (View.Piece (Elt Ideal) S15x100 .f32)) (j : ℕ) (hj : j < 15)
    (inb inb' : ∀ a, (![j, 0] : Fin 2 → ℕ) a + (![1, 100] : Fin 2 → ℕ) a ≤ S15x100.size a)
    (h1 : S1x100.ShapeCasts S100) (h2 : S100.ShapeCasts S1x100) (h : S25000x100.Reduces [0] S100)
    (hφ : FKind.Formats .f32) (hacc : (0x00000000#32 : BitVec 32) = FKind.add.neutral .f32 hφ)
    (hL : Filled bins d L j) :
    Filled bins d (⟨Rect.unit (s := S15x100) ![j, 0] ![1, 100] inb,
      shapeCast S1x100 (addf (F := Ideal) (φ := .f32)
        (shapeCast S100 (v.readCov L (Rect.unit (s := S15x100) ![j, 0] ![1, 100] inb').toLoadRect : S1x100.Idx → EReal) h1)
        (multiReduction .add [0] S100 (select (cmpi .eq bins (broadcast S25000x100 (BitVec.ofNat 32 j))) d
          (broadcast S25000x100 (Scalar.ofBits (F := Ideal) .f32 0x00000000#32))) 0x00000000#32 h hφ hacc)) h2⟩ :: L) (j + 1) := by
  intro b k
  by_cases hb : b.val = j
  · obtain ⟨bv, hbv⟩ := b
    obtain rfl : bv = j := hb
    rw [if_pos (Nat.lt_succ_self _)]
    have he : ix2 (⟨bv, hbv⟩ : Fin 15) k = (Rect.unit (s := S15x100) ![bv, 0] ![1, 100] inb).emb (ix2 (0 : Fin 1) k) :=
      (row_emb bv hbv _ rfl inb 0 k).symm
    rw [he, View.canon_cons_emb, ← he, accum_apply]
    refine (row_core bins d _ bv hbv h1 h2 h hφ hacc 0 k).trans (congrArg (· + _) ?_)
    rw [View.readCov_eq_canon']
    show View.canon L ((Rect.unit (s := S15x100) ![bv, 0] ![1, 100] inb').idx (ix2 (0 : Fin 1) k)) = _
    rw [row_emb bv hbv _ rfl inb' 0 k, hL ⟨bv, hbv⟩ k, if_neg (Nat.lt_irrefl _)]
  · have hne : ix2 b k ∉ (Rect.unit (s := S15x100) ![j, 0] ![1, 100] inb).set := by
      rw [Rect.mem_set_unit]
      intro hm
      have h0 := hm (0 : Fin 2)
      have e1 : ((ix2 b k : S15x100.Idx) (0 : Fin 2)).val = b.val := rfl
      have e2 : (![j, 0] : Fin 2 → ℕ) 0 = j := rfl
      have e3 : (![1, 100] : Fin 2 → ℕ) 0 = 1 := rfl
      rw [e1, e2, e3] at h0
      omega
    rw [View.canon_cons_of_not_mem ⟨Rect.unit (s := S15x100) ![j, 0] ![1, 100] inb, _⟩ L hne, hL b k]
    by_cases hlt : b.val < j
    · rw [if_pos hlt, if_pos (Nat.lt_succ_of_lt hlt)]
    · rw [if_neg hlt, if_neg (by omega)]

/-- Case A (a core's first point): the block's contribution over the zeroed accumulator. -/
theorem sout_A (c : Dev nD) (i : grid0.Coords) (arg2 : Memref sig .tc .vmem S25000x100 .f32) (harg2 : arg2.IsWhole) (arg3 : Memref sig .tc .vmem S25000x1 .i32) (harg3 : arg3.IsWhole) (arg4 : Memref sig .tc .vmem S1x15x100 .f32) (harg4 : arg4.IsWhole) (arg5 : Memref sig .tc .vmem S15x100 .f32) (harg5 : arg5.IsWhole) (hc0 : cond0_0 i) (hc1 : ¬cond0_1 i)
    (x0 : Vec Ideal S25000x100 .f32) (x1 : Vec Ideal S25000x1 .i32) :
    sout0_A_0 (F := Ideal) c i arg2 harg2 arg3 harg3 arg4 harg4 arg5 harg5 hc0 hc1 x0 x1
      = accum (k0_pay7 (F := Ideal) x0) (k0_pay8 (F := Ideal) x0 x1) zeroAcc := by
  funext y
  obtain ⟨b, k, rfl⟩ : ∃ (b : Fin 15) (k : Fin 100), y = ix2 b k := ⟨y 0, y 1, eq_ix2 y⟩
  unfold sout0_A_0
  rw [View.read_writes_apply_eq_canon _ _ _ _ (scover0_A_0 c i arg2 harg2 arg3 harg3 arg4 harg4 arg5 harg5 hc0 hc1 x0 x1 (ix2 b k))]
  have hb7 : kernelRun0_A.sl.r (F := Ideal) c arg2 harg2 x0 = k0_pay7 (F := Ideal) x0 := by
    unfold kernelRun0_A.sl.r
    rw [View.readAt_eq_ld, harg2.read_unread, View.ld_unit_zero (S := S25000x100) hz2]
  have hb8 : kernelRun0_A.sl.r_1 (F := Ideal) c arg2 harg2 arg3 harg3 x0 x1 = k0_pay8 (F := Ideal) x0 x1 := by
    unfold kernelRun0_A.sl.r_1
    rw [View.readAt_eq_ld, harg2.read_unread, View.ld_unit_zero (S := S25000x100) hz2, View.readAt_eq_ld,
      harg3.read_unread, View.ld_unit_zero (S := S25000x1) hz2]
  have f1 : Filled (kernelRun0_A.sl.r (F := Ideal) c arg2 harg2 x0) (kernelRun0_A.sl.r_1 (F := Ideal) c arg2 harg2 arg3 harg3 x0 x1) (kernelRun0_A.sl.HS0_1 (F := Ideal)) 0 :=
    filled_base _ _ inb_S15x100_S15x100_0_0
  have f2 : Filled (kernelRun0_A.sl.r (F := Ideal) c arg2 harg2 x0) (kernelRun0_A.sl.r_1 (F := Ideal) c arg2 harg2 arg3 harg3 x0 x1) (kernelRun0_A.sl.HS0_2 (F := Ideal) c arg2 harg2 arg3 harg3 arg5 x0 x1) 1 :=
    filled_step _ _ arg5.view _ 0 (by omega) inb_S15x100_S1x100_0_0 inb_S15x100_S1x100_0_0 _ _ _ _ _ f1
  have f3 : Filled (kernelRun0_A.sl.r (F := Ideal) c arg2 harg2 x0) (kernelRun0_A.sl.r_1 (F := Ideal) c arg2 harg2 arg3 harg3 x0 x1) (kernelRun0_A.sl.HS0_3 (F := Ideal) c arg2 harg2 arg3 harg3 arg5 x0 x1) 2 :=
    filled_step _ _ arg5.view _ 1 (by omega) inb_S15x100_S1x100_1_0 inb_S15x100_S1x100_1_0 _ _ _ _ _ f2
  have f4 : Filled (kernelRun0_A.sl.r (F := Ideal) c arg2 harg2 x0) (kernelRun0_A.sl.r_1 (F := Ideal) c arg2 harg2 arg3 harg3 x0 x1) (kernelRun0_A.sl.HS0_4 (F := Ideal) c arg2 harg2 arg3 harg3 arg5 x0 x1) 3 :=
    filled_step _ _ arg5.view _ 2 (by omega) inb_S15x100_S1x100_2_0 inb_S15x100_S1x100_2_0 _ _ _ _ _ f3
  have f5 : Filled (kernelRun0_A.sl.r (F := Ideal) c arg2 harg2 x0) (kernelRun0_A.sl.r_1 (F := Ideal) c arg2 harg2 arg3 harg3 x0 x1) (kernelRun0_A.sl.HS0_5 (F := Ideal) c arg2 harg2 arg3 harg3 arg5 x0 x1) 4 :=
    filled_step _ _ arg5.view _ 3 (by omega) inb_S15x100_S1x100_3_0 inb_S15x100_S1x100_3_0 _ _ _ _ _ f4
  have f6 : Filled (kernelRun0_A.sl.r (F := Ideal) c arg2 harg2 x0) (kernelRun0_A.sl.r_1 (F := Ideal) c arg2 harg2 arg3 harg3 x0 x1) (kernelRun0_A.sl.HS0_6 (F := Ideal) c arg2 harg2 arg3 harg3 arg5 x0 x1) 5 :=
    filled_step _ _ arg5.view _ 4 (by omega) inb_S15x100_S1x100_4_0 inb_S15x100_S1x100_4_0 _ _ _ _ _ f5
  have f7 : Filled (kernelRun0_A.sl.r (F := Ideal) c arg2 harg2 x0) (kernelRun0_A.sl.r_1 (F := Ideal) c arg2 harg2 arg3 harg3 x0 x1) (kernelRun0_A.sl.HS0_7 (F := Ideal) c arg2 harg2 arg3 harg3 arg5 x0 x1) 6 :=
    filled_step _ _ arg5.view _ 5 (by omega) inb_S15x100_S1x100_5_0 inb_S15x100_S1x100_5_0 _ _ _ _ _ f6
  have f8 : Filled (kernelRun0_A.sl.r (F := Ideal) c arg2 harg2 x0) (kernelRun0_A.sl.r_1 (F := Ideal) c arg2 harg2 arg3 harg3 x0 x1) (kernelRun0_A.sl.HS0_8 (F := Ideal) c arg2 harg2 arg3 harg3 arg5 x0 x1) 7 :=
    filled_step _ _ arg5.view _ 6 (by omega) inb_S15x100_S1x100_6_0 inb_S15x100_S1x100_6_0 _ _ _ _ _ f7
  have f9 : Filled (kernelRun0_A.sl.r (F := Ideal) c arg2 harg2 x0) (kernelRun0_A.sl.r_1 (F := Ideal) c arg2 harg2 arg3 harg3 x0 x1) (kernelRun0_A.sl.HS0_9 (F := Ideal) c arg2 harg2 arg3 harg3 arg5 x0 x1) 8 :=
    filled_step _ _ arg5.view _ 7 (by omega) inb_S15x100_S1x100_7_0 inb_S15x100_S1x100_7_0 _ _ _ _ _ f8
  have f10 : Filled (kernelRun0_A.sl.r (F := Ideal) c arg2 harg2 x0) (kernelRun0_A.sl.r_1 (F := Ideal) c arg2 harg2 arg3 harg3 x0 x1) (kernelRun0_A.sl.HS0_10 (F := Ideal) c arg2 harg2 arg3 harg3 arg5 x0 x1) 9 :=
    filled_step _ _ arg5.view _ 8 (by omega) inb_S15x100_S1x100_8_0 inb_S15x100_S1x100_8_0 _ _ _ _ _ f9
  have f11 : Filled (kernelRun0_A.sl.r (F := Ideal) c arg2 harg2 x0) (kernelRun0_A.sl.r_1 (F := Ideal) c arg2 harg2 arg3 harg3 x0 x1) (kernelRun0_A.sl.HS0_11 (F := Ideal) c arg2 harg2 arg3 harg3 arg5 x0 x1) 10 :=
    filled_step _ _ arg5.view _ 9 (by omega) inb_S15x100_S1x100_9_0 inb_S15x100_S1x100_9_0 _ _ _ _ _ f10
  have f12 : Filled (kernelRun0_A.sl.r (F := Ideal) c arg2 harg2 x0) (kernelRun0_A.sl.r_1 (F := Ideal) c arg2 harg2 arg3 harg3 x0 x1) (kernelRun0_A.sl.HS0_12 (F := Ideal) c arg2 harg2 arg3 harg3 arg5 x0 x1) 11 :=
    filled_step _ _ arg5.view _ 10 (by omega) inb_S15x100_S1x100_10_0 inb_S15x100_S1x100_10_0 _ _ _ _ _ f11
  have f13 : Filled (kernelRun0_A.sl.r (F := Ideal) c arg2 harg2 x0) (kernelRun0_A.sl.r_1 (F := Ideal) c arg2 harg2 arg3 harg3 x0 x1) (kernelRun0_A.sl.HS0_13 (F := Ideal) c arg2 harg2 arg3 harg3 arg5 x0 x1) 12 :=
    filled_step _ _ arg5.view _ 11 (by omega) inb_S15x100_S1x100_11_0 inb_S15x100_S1x100_11_0 _ _ _ _ _ f12
  have f14 : Filled (kernelRun0_A.sl.r (F := Ideal) c arg2 harg2 x0) (kernelRun0_A.sl.r_1 (F := Ideal) c arg2 harg2 arg3 harg3 x0 x1) (kernelRun0_A.sl.HS0_14 (F := Ideal) c arg2 harg2 arg3 harg3 arg5 x0 x1) 13 :=
    filled_step _ _ arg5.view _ 12 (by omega) inb_S15x100_S1x100_12_0 inb_S15x100_S1x100_12_0 _ _ _ _ _ f13
  have f15 : Filled (kernelRun0_A.sl.r (F := Ideal) c arg2 harg2 x0) (kernelRun0_A.sl.r_1 (F := Ideal) c arg2 harg2 arg3 harg3 x0 x1) (kernelRun0_A.sl.HS0_15 (F := Ideal) c arg2 harg2 arg3 harg3 arg5 x0 x1) 14 :=
    filled_step _ _ arg5.view _ 13 (by omega) inb_S15x100_S1x100_13_0 inb_S15x100_S1x100_13_0 _ _ _ _ _ f14
  have f16 : Filled (kernelRun0_A.sl.r (F := Ideal) c arg2 harg2 x0) (kernelRun0_A.sl.r_1 (F := Ideal) c arg2 harg2 arg3 harg3 x0 x1) (kernelRun0_A (F := Ideal) c i arg2 harg2 arg3 harg3 arg4 harg4 arg5 harg5 hc0 hc1 x0 x1).2.1 15 :=
    filled_step _ _ arg5.view _ 14 (by omega) inb_S15x100_S1x100_14_0 inb_S15x100_S1x100_14_0 _ _ _ _ _ f15
  have hf := f16 b k
  rw [if_pos b.isLt, hb7, hb8] at hf
  exact hf

/-- Case B (a middle point): what the point before left, plus the block's contribution. -/
theorem sout_B (c : Dev nD) (i : grid0.Coords) (arg2 : Memref sig .tc .vmem S25000x100 .f32) (harg2 : arg2.IsWhole) (arg3 : Memref sig .tc .vmem S25000x1 .i32) (harg3 : arg3.IsWhole) (arg4 : Memref sig .tc .vmem S1x15x100 .f32) (harg4 : arg4.IsWhole) (arg5 : Memref sig .tc .vmem S15x100 .f32) (harg5 : arg5.IsWhole) (hc0 : ¬cond0_0 i) (hc1 : ¬cond0_1 i)
    (x0 : Vec Ideal S25000x100 .f32) (x1 : Vec Ideal S25000x1 .i32) (xs0 : Vec Ideal S15x100 .f32) :
    sout0_B_0 (F := Ideal) c i arg2 harg2 arg3 harg3 arg4 harg4 arg5 harg5 hc0 hc1 x0 x1 xs0
      = accum (k0_pay7 (F := Ideal) x0) (k0_pay8 (F := Ideal) x0 x1) xs0 := by
  funext y
  unfold sout0_B_0
  rw [View.read_writes_apply_eq_canon _ _ y _ (scover0_B_0 c i arg2 harg2 arg3 harg3 arg4 harg4 arg5 harg5 hc0 hc1 x0 x1 xs0 y)]
  refine View.canon_apply_of_pieces (accum (k0_pay7 (F := Ideal) x0) (k0_pay8 (F := Ideal) x0 x1) xs0) _ ?_ y
    (scover0_B_0 c i arg2 harg2 arg3 harg3 arg4 harg4 arg5 harg5 hc0 hc1 x0 x1 xs0 y)
  unfold kernelRun0_B
  dsimp only
  sl_unfold_words
  simp only [View.readAt_eq_ld, harg2.read_unread, harg3.read_unread, harg5.read_unread,
    View.ld_unit_zero (S := S25000x100) hz2, View.ld_unit_zero (S := S25000x1) hz2]
  intro p hp
  simp only [List.mem_cons, List.mem_nil_iff, or_false] at hp
  rcases hp with rfl | rfl | rfl | rfl | rfl | rfl | rfl | rfl | rfl | rfl | rfl | rfl | rfl | rfl | rfl
  · exact fun x => piece_ok _ _ xs0 14 (by omega) inb_S15x100_S1x100_14_0 inb_S15x100_S1x100_14_0 _ _ _ _ _ x
  · exact fun x => piece_ok _ _ xs0 13 (by omega) inb_S15x100_S1x100_13_0 inb_S15x100_S1x100_13_0 _ _ _ _ _ x
  · exact fun x => piece_ok _ _ xs0 12 (by omega) inb_S15x100_S1x100_12_0 inb_S15x100_S1x100_12_0 _ _ _ _ _ x
  · exact fun x => piece_ok _ _ xs0 11 (by omega) inb_S15x100_S1x100_11_0 inb_S15x100_S1x100_11_0 _ _ _ _ _ x
  · exact fun x => piece_ok _ _ xs0 10 (by omega) inb_S15x100_S1x100_10_0 inb_S15x100_S1x100_10_0 _ _ _ _ _ x
  · exact fun x => piece_ok _ _ xs0 9 (by omega) inb_S15x100_S1x100_9_0 inb_S15x100_S1x100_9_0 _ _ _ _ _ x
  · exact fun x => piece_ok _ _ xs0 8 (by omega) inb_S15x100_S1x100_8_0 inb_S15x100_S1x100_8_0 _ _ _ _ _ x
  · exact fun x => piece_ok _ _ xs0 7 (by omega) inb_S15x100_S1x100_7_0 inb_S15x100_S1x100_7_0 _ _ _ _ _ x
  · exact fun x => piece_ok _ _ xs0 6 (by omega) inb_S15x100_S1x100_6_0 inb_S15x100_S1x100_6_0 _ _ _ _ _ x
  · exact fun x => piece_ok _ _ xs0 5 (by omega) inb_S15x100_S1x100_5_0 inb_S15x100_S1x100_5_0 _ _ _ _ _ x
  · exact fun x => piece_ok _ _ xs0 4 (by omega) inb_S15x100_S1x100_4_0 inb_S15x100_S1x100_4_0 _ _ _ _ _ x
  · exact fun x => piece_ok _ _ xs0 3 (by omega) inb_S15x100_S1x100_3_0 inb_S15x100_S1x100_3_0 _ _ _ _ _ x
  · exact fun x => piece_ok _ _ xs0 2 (by omega) inb_S15x100_S1x100_2_0 inb_S15x100_S1x100_2_0 _ _ _ _ _ x
  · exact fun x => piece_ok _ _ xs0 1 (by omega) inb_S15x100_S1x100_1_0 inb_S15x100_S1x100_1_0 _ _ _ _ _ x
  · exact fun x => piece_ok _ _ xs0 0 (by omega) inb_S15x100_S1x100_0_0 inb_S15x100_S1x100_0_0 _ _ _ _ _ x

/-- Case C (a core's last point): the same in the accumulator, -/
theorem sout_C (c : Dev nD) (i : grid0.Coords) (arg2 : Memref sig .tc .vmem S25000x100 .f32) (harg2 : arg2.IsWhole) (arg3 : Memref sig .tc .vmem S25000x1 .i32) (harg3 : arg3.IsWhole) (arg4 : Memref sig .tc .vmem S1x15x100 .f32) (harg4 : arg4.IsWhole) (arg5 : Memref sig .tc .vmem S15x100 .f32) (harg5 : arg5.IsWhole) (hc0 : ¬cond0_0 i) (hc1 : cond0_1 i)
    (x0 : Vec Ideal S25000x100 .f32) (x1 : Vec Ideal S25000x1 .i32) (xs0 : Vec Ideal S15x100 .f32) :
    sout0_C_0 (F := Ideal) c i arg2 harg2 arg3 harg3 arg4 harg4 arg5 harg5 hc0 hc1 x0 x1 xs0
      = accum (k0_pay7 (F := Ideal) x0) (k0_pay8 (F := Ideal) x0 x1) xs0 := by
  funext y
  unfold sout0_C_0
  rw [View.read_writes_apply_eq_canon _ _ y _ (scover0_C_0 c i arg2 harg2 arg3 harg3 arg4 harg4 arg5 harg5 hc0 hc1 x0 x1 xs0 y)]
  refine View.canon_apply_of_pieces (accum (k0_pay7 (F := Ideal) x0) (k0_pay8 (F := Ideal) x0 x1) xs0) _ ?_ y
    (scover0_C_0 c i arg2 harg2 arg3 harg3 arg4 harg4 arg5 harg5 hc0 hc1 x0 x1 xs0 y)
  unfold kernelRun0_C
  dsimp only
  sl_unfold_words
  simp only [View.readAt_eq_ld, harg2.read_unread, harg3.read_unread, harg5.read_unread,
    View.ld_unit_zero (S := S25000x100) hz2, View.ld_unit_zero (S := S25000x1) hz2]
  intro p hp
  simp only [List.mem_cons, List.mem_nil_iff, or_false] at hp
  rcases hp with rfl | rfl | rfl | rfl | rfl | rfl | rfl | rfl | rfl | rfl | rfl | rfl | rfl | rfl | rfl
  · exact fun x => piece_ok _ _ xs0 14 (by omega) inb_S15x100_S1x100_14_0 inb_S15x100_S1x100_14_0 _ _ _ _ _ x
  · exact fun x => piece_ok _ _ xs0 13 (by omega) inb_S15x100_S1x100_13_0 inb_S15x100_S1x100_13_0 _ _ _ _ _ x
  · exact fun x => piece_ok _ _ xs0 12 (by omega) inb_S15x100_S1x100_12_0 inb_S15x100_S1x100_12_0 _ _ _ _ _ x
  · exact fun x => piece_ok _ _ xs0 11 (by omega) inb_S15x100_S1x100_11_0 inb_S15x100_S1x100_11_0 _ _ _ _ _ x
  · exact fun x => piece_ok _ _ xs0 10 (by omega) inb_S15x100_S1x100_10_0 inb_S15x100_S1x100_10_0 _ _ _ _ _ x
  · exact fun x => piece_ok _ _ xs0 9 (by omega) inb_S15x100_S1x100_9_0 inb_S15x100_S1x100_9_0 _ _ _ _ _ x
  · exact fun x => piece_ok _ _ xs0 8 (by omega) inb_S15x100_S1x100_8_0 inb_S15x100_S1x100_8_0 _ _ _ _ _ x
  · exact fun x => piece_ok _ _ xs0 7 (by omega) inb_S15x100_S1x100_7_0 inb_S15x100_S1x100_7_0 _ _ _ _ _ x
  · exact fun x => piece_ok _ _ xs0 6 (by omega) inb_S15x100_S1x100_6_0 inb_S15x100_S1x100_6_0 _ _ _ _ _ x
  · exact fun x => piece_ok _ _ xs0 5 (by omega) inb_S15x100_S1x100_5_0 inb_S15x100_S1x100_5_0 _ _ _ _ _ x
  · exact fun x => piece_ok _ _ xs0 4 (by omega) inb_S15x100_S1x100_4_0 inb_S15x100_S1x100_4_0 _ _ _ _ _ x
  · exact fun x => piece_ok _ _ xs0 3 (by omega) inb_S15x100_S1x100_3_0 inb_S15x100_S1x100_3_0 _ _ _ _ _ x
  · exact fun x => piece_ok _ _ xs0 2 (by omega) inb_S15x100_S1x100_2_0 inb_S15x100_S1x100_2_0 _ _ _ _ _ x
  · exact fun x => piece_ok _ _ xs0 1 (by omega) inb_S15x100_S1x100_1_0 inb_S15x100_S1x100_1_0 _ _ _ _ _ x
  · exact fun x => piece_ok _ _ xs0 0 (by omega) inb_S15x100_S1x100_0_0 inb_S15x100_S1x100_0_0 _ _ _ _ _ x

/-- and the output block is that accumulator, under a leading unit axis. -/
theorem out_C (c : Dev nD) (i : grid0.Coords) (arg2 : Memref sig .tc .vmem S25000x100 .f32) (harg2 : arg2.IsWhole) (arg3 : Memref sig .tc .vmem S25000x1 .i32) (harg3 : arg3.IsWhole) (arg4 : Memref sig .tc .vmem S1x15x100 .f32) (harg4 : arg4.IsWhole) (arg5 : Memref sig .tc .vmem S15x100 .f32) (harg5 : arg5.IsWhole) (hc0 : ¬cond0_0 i) (hc1 : cond0_1 i)
    (x0 : Vec Ideal S25000x100 .f32) (x1 : Vec Ideal S25000x1 .i32) (xs0 : Vec Ideal S15x100 .f32) (b : Fin 15) (k : Fin 100) :
    out0_C_2 (F := Ideal) c i arg2 harg2 arg3 harg3 arg4 harg4 arg5 harg5 hc0 hc1 x0 x1 xs0 (ix3 (0 : Fin 1) b k)
      = accum (k0_pay7 (F := Ideal) x0) (k0_pay8 (F := Ideal) x0 x1) xs0 (ix2 b k) := by
  have hout : (kernelRun0_C (F := Ideal) c i arg2 harg2 arg3 harg3 arg4 harg4 arg5 harg5 hc0 hc1 x0 x1 xs0).1
      = [⟨Rect.unit (s := S1x15x100) ![0, 0, 0] ![1, 15, 100] inb_S1x15x100_S1x15x100_0_0_0,
          k0_pay4 (arg5.view.readCov (kernelRun0_C (F := Ideal) c i arg2 harg2 arg3 harg3 arg4 harg4 arg5 harg5 hc0 hc1 x0 x1 xs0).2.1
            (Rect.unit (s := S15x100) ![0, 0] ![15, 100] inb_S15x100_S15x100_0_0).toLoadRect)⟩] := rfl
  unfold out0_C_2
  rw [View.read_writes_eq_canon _ _ _ (cover0_C_2 c i arg2 harg2 arg3 harg3 arg4 harg4 arg5 harg5 hc0 hc1 x0 x1 xs0), hout, View.canon_unit_zero hz3]
  unfold k0_pay4
  refine (shapeCast_ab_1ab_apply _ _ 0 b k).trans ?_
  rw [View.readCov_eq_canon_ld _ _ _ (scover0_C_0 c i arg2 harg2 arg3 harg3 arg4 harg4 arg5 harg5 hc0 hc1 x0 x1 xs0), View.ld_unit_zero (S := S15x100) hz2]
  have hs := sout_C c i arg2 harg2 arg3 harg3 arg4 harg4 arg5 harg5 hc0 hc1 x0 x1 xs0
  unfold sout0_C_0 at hs
  rw [View.read_writes_eq_canon _ _ _ (scover0_C_0 c i arg2 harg2 arg3 harg3 arg4 harg4 arg5 harg5 hc0 hc1 x0 x1 xs0)] at hs
  exact congrFun hs _

end Cert.Ece.Block
end
-- ==== Proof.InBlocks.lean ====
/-
  The two input windows' blocks, read off the argument arrays.

  Point t of the 2 x 10 grid (t = 10 * core + step) fetches block number t of each input: rows
  25000 t ... 25000 t + 24999 of the logits, and the same rows of the labels, which reach the kernel reshaped
  from a vector of 500000 words to a 500000 x 1 column (row n of the column is word n of the vector).
-/
import proofs.«153686_j5634997093213_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.Ece.Kern

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-- A point of the grid is one of twenty. -/
theorem point_lt (t : Fin cfg0.N) : t.val < 20 := lt_of_lt_of_eq t.isLt (show cfg0.N = 20 from N_0)

/-- Row r of block t, as a row of the whole batch. -/
abbrev rowOf (t : Fin cfg0.N) (r : Fin 25000) : Fin 500000 :=
  ⟨t.val * 25000 + r.val, by have := point_lt t; have := r.isLt; omega⟩

/-- Both inputs' index maps send point t to block (t, 0). -/
theorem in_index (t : Fin cfg0.N) :
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0) t

/-- The logits' block at point t: rows 25000 t + r of the argument. -/
theorem iblk0_apply (c : Dev nD) (t : Fin cfg0.N) (r : Fin 25000) (k : Fin 100) :
    (iblk m c 0 t : S25000x100.Idx → Elt F .f32) (ix2 r k)
      = (m ((c : Thread nD τ).loc main_arg0) : S500000x100.Idx → Elt F .f32) (ix2 (rowOf t r) k) := by
  have hi := in_index t
  unfold iblk
  rw [View.read_apply]
  show V m c main_arg0 _ = _
  rw [V_main_arg0]
  congr 1
  funext a
  apply Fin.ext
  match a with
  | ⟨0, _⟩ => show win0_0.index t 0 * 25000 + 1 * r.val = t.val * 25000 + r.val; rw [hi.1]; omega
  | ⟨1, _⟩ => show win0_0.index t 1 * 100 + 1 * k.val = k.val; rw [hi.2.1]; omega

/-- The label column as the region finds it: the label vector reshaped. -/
theorem V_main_v0 (c : Dev nD) :
    V m c main_v0 = shapeCast S500000x1 (m ((c : Thread nD τ).loc main_arg1)) shapeCasts_S500000_S500000x1 := by
  show StableHlo.after hostOps0 (fun b => m (c, b)) (Proc.devRef .tc main_v0) = _
  after_results
  rfl

/-- The labels' block at point t: words 25000 t + r of the argument. -/
theorem iblk1_apply (c : Dev nD) (t : Fin cfg0.N) (r : Fin 25000) :
    (iblk m c 1 t : S25000x1.Idx → Elt F .i32) (ix2 r (0 : Fin 1))
      = (m ((c : Thread nD τ).loc main_arg1) : S500000.Idx → Elt F .i32) (ix1 (rowOf t r)) := by
  have hi := in_index t
  unfold iblk
  rw [View.read_apply]
  show V m c main_v0 _ = _
  rw [V_main_v0]
  refine shapeCast_apply _ _ _ _ ?_
  refine (Shape.rowMajor_val_one (d := ![500000]) (ix1 (rowOf t r))).trans ?_
  refine Eq.trans ?_ (Shape.rowMajor_val_two (d := ![500000, 1]) _).symm
  show t.val * 25000 + r.val = (win0_1.index t 0 * 25000 + 1 * r.val) * 1 + (win0_1.index t 1 * 1 + 1 * 0)
  rw [hi.2.2.1, hi.2.2.2]
  omega

end Cert.Ece.Kern

end
-- ==== Proof.Tail.lean ====
/-
  The last host operations of the kernel's program, as two pure functions, and what they compute.

  The two halves of the grid leave two 15 x 100 tables of cells.  The host adds the two tables, takes absolute
  values, sums the 15 bins of each class and divides by the number of rows: that is the per-class error once the
  two tables add up to the cells summed over all rows.  It then sums the 100 class errors and divides by 100:
  the scalar error.
-/
import proofs.«153686_j5634997093213_2_alg».proof.Proof.Spec
import proofs.«153686_j5634997093213_2_alg».proof.Proof.Gen.KernelIdeal
import Idealize.ShloMosaic.PureOps.Ideal.Laws
import Idealize.ShloMosaic.Lib.IdealHost
import Idealize.ShloMosaic.Lib.ValueIdx

noncomputable section

namespace Cert.Ece.Tail

open Idealize.ShloMosaic Idealize.ShloMosaic.ValueIdx
open Cert.KernelIdeal (S2x15x100 S15x100 S100 S_)

variable [Cert.KernelIdeal.Facts]
open Cert.KernelIdeal.Facts₀ Cert.KernelIdeal.Facts

/-- The two tables added, absolute values, the bins summed, over the number of rows. -/
def perClassOf (W : FVec Ideal S2x15x100 .f32) : FVec Ideal S100 .f32 :=
  Host.divf (F := Ideal)
    (Host.reduceAdd (F := Ideal)
      (Host.absf (F := Ideal)
        (Host.reduceAdd (F := Ideal) W (constant (F := Ideal) S_ .f32 0x00000000#32) reducesTo_S2x15x100_S15x100_d0 h_S_))
      (constant (F := Ideal) S_ .f32 0x00000000#32) reducesTo_S15x100_S100_d0 h_S_)
    (broadcastInDim S100 ![] bcast_S_S100 (constant (F := Ideal) S_ .f32 0x48F42400#32))

/-- The class errors summed, over the number of classes. -/
def sceOf (P : FVec Ideal S100 .f32) : FVec Ideal S_ .f32 :=
  Host.divf (F := Ideal)
    (Host.reduceAdd (F := Ideal) P (constant (F := Ideal) S_ .f32 0x00000000#32) reducesTo_S100_S_d0 h_S_)
    (constant (F := Ideal) S_ .f32 0x42C80000#32)

/-- The sum of the two tables at a cell. -/
theorem tables_added (W : FVec Ideal S2x15x100 .f32) (b : Fin 15) (k : Fin 100) :
    Host.reduceAdd (F := Ideal) W (constant (F := Ideal) S_ .f32 0x00000000#32) reducesTo_S2x15x100_S15x100_d0 h_S_
        (ix2 b k)
      = W (ix3 (0 : Fin 2) b k) + W (ix3 (1 : Fin 2) b k) := by
  rw [hostReduceAdd_apply, constant_apply,
    Ideal.hostReduceAdd_single _ (by decide : S2x15x100.Reduces [0] S15x100), Ideal.ofBits_zero_f32, zero_add]
  show ∑ t : Fin 2, W _ = _
  rw [Fin.sum_univ_two]
  congr 1 <;>
    exact congrArg W (funext fun c => match c with
      | ⟨0, _⟩ => Fin.ext rfl | ⟨1, _⟩ => Fin.ext rfl | ⟨2, _⟩ => Fin.ext rfl)

/-- The sum over the bins of a 15 x 100 table at a class. -/
theorem bins_summed (V : FVec Ideal S15x100 .f32) (k : Fin 100) :
    Host.reduceAdd (F := Ideal) V (constant (F := Ideal) S_ .f32 0x00000000#32) reducesTo_S15x100_S100_d0 h_S_ (ix1 k)
      = ∑ b : Fin 15, V (ix2 b k) := by
  rw [hostReduceAdd_apply, constant_apply,
    Ideal.hostReduceAdd_single _ (by decide : S15x100.Reduces [0] S100), Ideal.ofBits_zero_f32, zero_add]
  show ∑ b : Fin 15, V _ = _
  refine Finset.sum_congr rfl fun b _ => ?_
  exact congrArg V (funext fun c => match c with | ⟨0, _⟩ => Fin.ext rfl | ⟨1, _⟩ => Fin.ext rfl)

/-- When the two tables add up to the cells summed over all rows, the host computes the per-class error. -/
theorem perClassOf_eq (W : FVec Ideal S2x15x100 .f32) (x : (⟨2, ![500000, 100]⟩ : Shape).Idx → EReal)
    (lab : (⟨1, ![500000]⟩ : Shape).Idx → BitVec 32)
    (hW : ∀ (b : Fin 15) (k : Fin 100), W (ix3 (0 : Fin 2) b k) + W (ix3 (1 : Fin 2) b k) = Cert.Ece.total x lab b k) :
    perClassOf W = Cert.Ece.perClass x lab := by
  funext j
  obtain ⟨k, rfl⟩ : ∃ k : Fin 100, j = ix1 k := ⟨j 0, eq_ix1 j⟩
  unfold perClassOf Cert.Ece.perClass
  rw [hostDivf_apply, broadcastInDim_scalar_apply, constant_apply, bins_summed]
  refine congrArg (fun s => Ideal.div s (Ideal.ofBits .f32 0x48F42400#32)) ?_
  refine Finset.sum_congr rfl fun b _ => ?_
  show max (Host.reduceAdd (F := Ideal) W _ _ _ (ix2 b k)) (-(Host.reduceAdd (F := Ideal) W _ _ _ (ix2 b k))) = _
  rw [tables_added, hW]

/-- The host's last two operations compute the scalar error from the per-class errors. -/
theorem sceOf_eq (x : (⟨2, ![500000, 100]⟩ : Shape).Idx → EReal) (lab : (⟨1, ![500000]⟩ : Shape).Idx → BitVec 32) :
    sceOf (Cert.Ece.perClass x lab) = Cert.Ece.sce x lab := by
  funext j
  unfold sceOf Cert.Ece.sce
  rw [hostDivf_apply, constant_apply, hostReduceAdd_apply, constant_apply,
    Ideal.hostReduceAdd_total _ (fun b => b.elim0), Ideal.ofBits_zero_f32, zero_add]
  refine congrArg (fun s => Ideal.div s (Ideal.ofBits .f32 0x42C80000#32)) ?_
  exact Fintype.sum_equiv ⟨fun i => i 0, fun k => ix1 k, fun i => (eq_ix1 i).symm, fun _ => rfl⟩ _ _
    (fun i => congrArg _ (eq_ix1 i))

end Cert.Ece.Tail

end
-- ==== Proof.KernRun.lean ====
/-
  The output array after the region, and the run of the whole program.

  Output block j (one 15 x 100 table per core j) is written back once, at the last point of core j's ten,
  t = 10 j + 9; the two blocks tile the 2 x 15 x 100 array.  So when what the body leaves at those two points is
  the matching block of one array W, the array ends holding W; the host operations after the region then compute
  the per-class errors and the scalar error of W, and the arguments end as they were.
-/
import proofs.«153686_j5634997093213_2_alg».proof.Proof.Gen.KernelIdeal.Frame
import proofs.«153686_j5634997093213_2_alg».proof.Proof.InBlocks
import proofs.«153686_j5634997093213_2_alg».proof.Proof.Tail
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.Ece.Kern

open Cert.KernelIdeal Cert.KernelIdeal.Gen Idealize.ShloMosaic.ValueIdx Idealize.ShloMosaic.StableHlo

section Array

variable {F : FTy → Type} [FloatOps F]
variable (m : (ℓ : Loc nD τ sig) → Buf (Elt F) ℓ)

/-- The core a point belongs to. -/
abbrev coreOf (t : Fin cfg0.N) : Fin 2 := ⟨t.val / 10, by have := point_lt t; omega⟩

/-- The output's index map sends point t to block (t / 10, 0, 0), a whole 1 x 15 x 100 block. -/
theorem out_index (t : Fin cfg0.N) :
    win0_2.index t 0 = t.val / 10 ∧ win0_2.index t 1 = 0 ∧ win0_2.index t 2 = 0
      ∧ win0_2.xsize (grid0.coords t) 0 = 1 ∧ win0_2.xsize (grid0.coords t) 1 = 15
      ∧ win0_2.xsize (grid0.coords t) 2 = 100 :=
  (by decide +kernel : ∀ t : Fin grid0.N,
    win0_2.index t 0 = t.val / 10 ∧ win0_2.index t 1 = 0 ∧ win0_2.index t 2 = 0
      ∧ win0_2.xsize (grid0.coords t) 0 = 1 ∧ win0_2.xsize (grid0.coords t) 1 = 15
      ∧ win0_2.xsize (grid0.coords t) 2 = 100) t

/-- What a point that writes back writes is its core's block of W. -/
theorem out_flushed (c : Dev nD) (W : S2x15x100.Idx → Elt F .f32)
    (hW : ∀ t : Fin cfg0.N, t.val % 10 = 9 → ∀ (b : Fin 15) (k : Fin 100),
      (outsAt0 m c t.val t.isLt).1 (ix3 (0 : Fin 1) b k) = W (ix3 (coreOf t) b k))
    (t : Fin cfg0.N) (hf : (cfg0.win 2).flush t = true) :
    (dats m 0 c).flushed 2 t = ((cfg0.win 2).blk t).view.read (Elt F) W := by
  have h9 : t.val % 10 = 9 := (flush0_2 t).mp hf
  have hi := out_index t
  funext y
  show (cfg0.win 2).cut (grid0.coords t) ((dats m 0 c).after 2 t) y = _
  rw [after0_2, View.read_apply]
  have y0 : (y 0).val < 1 := (y 0).isLt
  have y1 : (y 1).val < 15 := (y 1).isLt
  have y2 : (y 2).val < 100 := (y 2).isLt
  have e1 : (cfg0.win 2).xinj (grid0.coords t) y = ix3 (0 : Fin 1) ⟨(y 1).val, y1⟩ ⟨(y 2).val, y2⟩ :=
    funext fun a => match a with
      | ⟨0, _⟩ => Fin.ext (by show (y 0).val = 0; omega)
      | ⟨1, _⟩ => Fin.ext rfl
      | ⟨2, _⟩ => Fin.ext rfl
  have e2 : ((cfg0.win 2).blk t).view.emb y = ix3 (coreOf t) ⟨(y 1).val, y1⟩ ⟨(y 2).val, y2⟩ :=
    funext fun a => match a with
      | ⟨0, _⟩ => Fin.ext (by show win0_2.index t 0 * 1 + 1 * (y 0).val = t.val / 10; rw [hi.1]; omega)
      | ⟨1, _⟩ => Fin.ext (by show win0_2.index t 1 * 15 + 1 * (y 1).val = (y 1).val; rw [hi.2.1]; omega)
      | ⟨2, _⟩ => Fin.ext (by show win0_2.index t 2 * 100 + 1 * (y 2).val = (y 2).val; rw [hi.2.2.1]; omega)
  show (outsAt0 m c t.val t.isLt).1 ((cfg0.win 2).xinj (grid0.coords t) y) = W (((cfg0.win 2).blk t).view.emb y)
  exact (congrArg (outsAt0 m c t.val t.isLt).1 e1).trans ((hW t h9 _ _).trans (congrArg W e2.symm))

/-- The output array after the region. -/
theorem out_array (c : Dev nD) (W : S2x15x100.Idx → Elt F .f32)
    (hW : ∀ t : Fin cfg0.N, t.val % 10 = 9 → ∀ (b : Fin 15) (k : Fin 100),
      (outsAt0 m c t.val t.isLt).1 (ix3 (0 : Fin 1) b k) = W (ix3 (coreOf t) b k)) :
    (dats m 0 c).arrAt 2 cfg0.N = W :=
  (dats m 0 c).arrAt_eq_of_cover 2 W (out_flushed m c W hW) fun i => by
    have i0 : (i 0).val < 2 := (i 0).isLt
    have i1 : (i 1).val < 15 := (i 1).isLt
    have i2 : (i 2).val < 100 := (i 2).isLt
    obtain ⟨t, ht⟩ : ∃ t : Fin cfg0.N, t.val = 10 * (i 0).val + 9 :=
      ⟨⟨10 * (i 0).val + 9, lt_of_lt_of_eq (by omega : 10 * (i 0).val + 9 < 20) (show cfg0.N = 20 from N_0).symm⟩, rfl⟩
    have hi := out_index t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * win0_2.size 0 ≤ (i 0 : Nat)
        ∧ (i 0 : Nat) < win0_2.index t 0 * win0_2.size 0 + win0_2.xsize (grid0.coords t) 0
      rw [hi.1, hi.2.2.2.1, show win0_2.size 0 = 1 from rfl]; omega
    | ⟨1, _⟩ =>
      show win0_2.index t 1 * win0_2.size 1 ≤ (i 1 : Nat)
        ∧ (i 1 : Nat) < win0_2.index t 1 * win0_2.size 1 + win0_2.xsize (grid0.coords t) 1
      rw [hi.2.1, hi.2.2.2.2.1]; omega
    | ⟨2, _⟩ =>
      show win0_2.index t 2 * win0_2.size 2 ≤ (i 2 : Nat)
        ∧ (i 2 : Nat) < win0_2.index t 2 * win0_2.size 2 + win0_2.xsize (grid0.coords t) 2
      rw [hi.2.2.1, hi.2.2.2.2.2]; omega

end Array

section Run

variable (m : (ℓ : Loc nD τ sig) → Buf (Elt Ideal) ℓ) (ρ : Dev nD → PrngReg)

/-- The per-class result after the host's last operations, over the output array. -/
theorem tail_v6 (c : Dev nD) :
    Pipeline.afterTail₀ cfgs (dats m) 0 (V0 m) [hostOps1] c main_v6
      = Cert.Ece.Tail.perClassOf ((dats m 0 c).arrAt 2 cfg0.N) := by
  unfold Pipeline.afterTail₀
  show StableHlo.after hostOps1 _ (Proc.devRef .tc main_v6) = _
  after_results
  exact congrArg Cert.Ece.Tail.perClassOf (Pipeline.withArrays_arr spec0 launch0.win.arr_inj c _ _ 2)

/-- The scalar result after the host's last operations, over the output array. -/
theorem tail_v8 (c : Dev nD) :
    Pipeline.afterTail₀ cfgs (dats m) 0 (V0 m) [hostOps1] c main_v8
      = Cert.Ece.Tail.sceOf (Cert.Ece.Tail.perClassOf ((dats m 0 c).arrAt 2 cfg0.N)) := by
  unfold Pipeline.afterTail₀
  show StableHlo.after hostOps1 _ (Proc.devRef .tc main_v8) = _
  after_results
  exact congrArg (fun A => Cert.Ece.Tail.sceOf (Cert.Ece.Tail.perClassOf A))
    (Pipeline.withArrays_arr spec0 launch0.win.arr_inj c _ _ 2)

/-- The run of the whole program: both results over W, the arguments unchanged. -/
theorem run_results (W : Dev nD → S2x15x100.Idx → EReal)
    (hW : ∀ (c : Dev nD) (t : Fin cfg0.N), t.val % 10 = 9 → ∀ (b : Fin 15) (k : Fin 100),
      (outsAt0 m c t.val t.isLt).1 (ix3 (0 : Fin 1) b k) = W c (ix3 (coreOf t) b k)) :
    θ_run defs (onTc (τ := τ) (main (F := Ideal))) ⟨m, fun _ => 0, ρ⟩ (fun r => ∀ c : Dev nD,
      r.2.mem ((c.tc : Thread nD τ).loc main_v8) = Cert.Ece.Tail.sceOf (Cert.Ece.Tail.perClassOf (W c))
      ∧ r.2.mem ((c.tc : Thread nD τ).loc main_v6) = Cert.Ece.Tail.perClassOf (W c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans
        ((tail_v8 m c).trans (congrArg (fun A => Cert.Ece.Tail.sceOf (Cert.Ece.Tail.perClassOf A)) (out_array m c (W c) (hW c)))),
      ((h c).2 main_v6 (Pipeline.mem_restRefs_of main_v6 (by decide) (by decide))).trans
        ((tail_v6 m c).trans (congrArg Cert.Ece.Tail.perClassOf (out_array m c (W c) (hW c)))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Run

end Cert.Ece.Kern

end
-- ==== Proof.Points.lean ====
/-
  The accumulator along a core's ten points, and the output array it ends in.

  A core zeroes its accumulator at its first point and adds one block's contribution at every point, so after the
  point at position i of the core it holds the contributions of the core's first i + 1 blocks.  The output block is
  written at the core's last point: it holds the contributions of the core's ten blocks.
-/
import proofs.«153686_j5634997093213_2_alg».proof.Proof.BodyCases
import proofs.«153686_j5634997093213_2_alg».proof.Proof.InBlocks
import proofs.«153686_j5634997093213_2_alg».proof.Proof.KernRun

noncomputable section

open Idealize.ShloMosaic Idealize.ShloMosaic.TcCoe Idealize.SL.Sem

namespace Cert.Ece.Kern

open Cert.KernelIdeal Cert.KernelIdeal.Gen Idealize.ShloMosaic.ValueIdx

variable (m : (ℓ : Loc nD τ sig) → Buf (Elt Ideal) ℓ)

/-- What the block fetched at point t contributes to cell (b, k). -/
def blockCell (c : Dev nD) (t : Fin cfg0.N) (b : Fin 15) (k : Fin 100) : EReal :=
  Cert.Ece.Block.cellSum (k0_pay7 (F := Ideal) (iblk m c 0 t))
    (k0_pay8 (F := Ideal) (iblk m c 0 t) (iblk m c 1 t)) b k

/-- The same over a position that may lie past the grid, where it is zero. -/
def cellAt (c : Dev nD) (n : ℕ) (b : Fin 15) (k : Fin 100) : EReal :=
  if h : n < cfg0.N then blockCell m c ⟨n, h⟩ b k else 0

theorem cellAt_of_lt (c : Dev nD) (n : ℕ) (h : n < cfg0.N) (b : Fin 15) (k : Fin 100) :
    cellAt m c n b k = blockCell m c ⟨n, h⟩ b k := dif_pos h

/-- A core's first point leaves the block's contribution over zero. -/
theorem acc_first (c : Dev nD) (t : Fin cfg0.N) (h0 : t.val % 10 = 0) (b : Fin 15) (k : Fin 100) :
    (outsAt0 m c t.val t.isLt).2 (ix2 b k) = Ideal.ofBits .f32 0x00000000#32 + blockCell m c t b k := by
  have h1 : ¬t.val % 10 = 9 := by omega
  rw [outsAt0_A m c t h0 h1]
  dsimp only
  rw [Cert.Ece.Block.sout_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)]
  rfl

/-- Every later point adds the block's contribution to what the point before left. -/
theorem acc_next (c : Dev nD) (t : Fin cfg0.N) (h0 : ¬t.val % 10 = 0) (b : Fin 15) (k : Fin 100) :
    (outsAt0 m c t.val t.isLt).2 (ix2 b k)
      = (outsAt0 m c (t.val - 1) (Nat.lt_of_le_of_lt (Nat.sub_le _ _) t.isLt)).2 (ix2 b k) + blockCell m c t b k := by
  by_cases h1 : t.val % 10 = 9
  · rw [outsAt0_C m c t h0 h1]
    dsimp only
    rw [Cert.Ece.Block.sout_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]
    rfl
  · rw [outsAt0_B m c t h0 h1]
    dsimp only
    rw [Cert.Ece.Block.sout_B c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t)
      (iblk m c 1 t) (outsAt0 m c (t.val - 1) (Nat.lt_of_le_of_lt (Nat.sub_le _ _) t.isLt)).2]
    rfl

/-- A core's last point leaves in the output block what it leaves in the accumulator. -/
theorem out_last (c : Dev nD) (t : Fin cfg0.N) (h1 : t.val % 10 = 9) (b : Fin 15) (k : Fin 100) :
    (outsAt0 m c t.val t.isLt).1 (ix3 (0 : Fin 1) b k)
      = (outsAt0 m c (t.val - 1) (Nat.lt_of_le_of_lt (Nat.sub_le _ _) t.isLt)).2 (ix2 b k) + blockCell m c t b k := by
  have h0 : ¬t.val % 10 = 0 := by omega
  rw [outsAt0_C m c t h0 h1]
  dsimp only
  rw [Cert.Ece.Block.out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2 b k]
  rfl

/-- The accumulator does not depend on how its position is written. -/
theorem acc_congr (c : Dev nD) {n n' : ℕ} (e : n = n') (h : n < cfg0.N) (h' : n' < cfg0.N) :
    (outsAt0 m c n h).2 = (outsAt0 m c n' h').2 := by subst e; rfl

/-- After the point at position n the accumulator holds zero plus the contributions of the blocks of n's core up
    to n: positions n - n % 10, ..., n. -/
theorem acc_eq (c : Dev nD) (b : Fin 15) (k : Fin 100) : ∀ (n : ℕ) (h : n < cfg0.N),
    (outsAt0 m c n h).2 (ix2 b k)
      = Ideal.ofBits .f32 0x00000000#32 + ∑ s ∈ Finset.range (n % 10 + 1), cellAt m c (n - n % 10 + s) b k
  | 0, h => by
    rw [acc_first m c ⟨0, h⟩ rfl b k]
    simp only [Nat.zero_mod, Nat.sub_zero, Nat.zero_add, Finset.sum_range_one, Nat.add_zero]
    rw [cellAt_of_lt m c 0 h]
  | n + 1, h => by
    by_cases h0 : (n + 1) % 10 = 0
    · rw [acc_first m c ⟨n + 1, h⟩ h0 b k, h0]
      simp only [Nat.sub_zero, Nat.zero_add, Finset.sum_range_one, Nat.add_zero]
      rw [cellAt_of_lt m c (n + 1) h]
    · have hn : n < cfg0.N := Nat.lt_of_succ_lt h
      have e1 : (n + 1) % 10 = n % 10 + 1 := by omega
      have e2 : n + 1 - (n % 10 + 1) = n - n % 10 := by omega
      have e3 : n - n % 10 + (n % 10 + 1) = n + 1 := by omega
      rw [acc_next m c ⟨n + 1, h⟩ h0 b k, acc_congr m c (show (⟨n + 1, h⟩ : Fin cfg0.N).val - 1 = n from rfl) _ hn,
        acc_eq c b k n hn, e1, e2, Finset.sum_range_succ _ (n % 10 + 1), e3, cellAt_of_lt m c (n + 1) h, add_assoc]

/-- The array the output ends holding: block j is the sum of the contributions of core j's ten blocks. -/
def outW (c : Dev nD) : S2x15x100.Idx → EReal :=
  fun y => ∑ i : Fin 10, cellAt m c ((y 0).val * 10 + i.val) (y 1) (y 2)

theorem outW_apply (c : Dev nD) (j : Fin 2) (b : Fin 15) (k : Fin 100) :
    outW m c (ix3 j b k) = ∑ i : Fin 10, cellAt m c (j.val * 10 + i.val) b k := rfl

/-- What a core's last point leaves in the output block is that core's block of the array. -/
theorem out_block (c : Dev nD) (t : Fin cfg0.N) (h1 : t.val % 10 = 9) (b : Fin 15) (k : Fin 100) :
    (outsAt0 m c t.val t.isLt).1 (ix3 (0 : Fin 1) b k) = outW m c (ix3 (coreOf t) b k) := by
  have hp : t.val - 1 < cfg0.N := Nat.lt_of_le_of_lt (Nat.sub_le _ _) t.isLt
  have e1 : (t.val - 1) % 10 + 1 = 9 := by omega
  have e2 : t.val - 1 - (t.val - 1) % 10 = t.val / 10 * 10 := by omega
  have e3 : t.val / 10 * 10 + 9 = t.val := by omega
  rw [out_last m c t h1 b k, acc_eq m c b k (t.val - 1) hp, e1, e2, Ideal.ofBits_zero_f32, zero_add, outW_apply,
    ← Finset.sum_range (fun s => cellAt m c (t.val / 10 * 10 + s) b k), Finset.sum_range_succ _ 9, e3,
    cellAt_of_lt m c t.val t.isLt]

end Cert.Ece.Kern

end
-- ==== Proof.BlockRows.lean ====
/-
  One block of 25000 rows, read at an index: the kernel's softmax, bin and signed difference at row r, class k
  are the specification's row functions of the block's row r and that row's label.
-/
import proofs.«153686_j5634997093213_2_alg».proof.Proof.BlockBase

noncomputable section

namespace Cert.Ece.Block
open Idealize.ShloMosaic Idealize.ShloMosaic.ValueIdx Cert.KernelIdeal Cert.KernelIdeal.Gen Cert.ColumnLayout

/-- Pointwise forms, over variables. -/
theorem max_bcast_apply (c : EReal) (B : S25000.Idx → EReal) (i : S25000.Idx) :
    maximumf (F := Ideal) (φ := .f32) (broadcast S25000 c) B i = max c (B i) := rfl

theorem exp_sub_apply (A B : S25000x100.Idx → EReal) (i : S25000x100.Idx) :
    exp (F := Ideal) (φ := .f32) (subf (F := Ideal) (φ := .f32) A B) i = Ideal.exp (A i - B i) := rfl

/-- The row maximum, kept as a column and laid along the classes, at (r, k). -/
theorem rowMaxCol_apply (x0 : S25000x100.Idx → EReal) (h : S25000x100.Reduces [1] S25000) (hφ : FKind.Formats .f32)
    (hacc : (0xFF800000#32 : BitVec 32) = FKind.maximumf.neutral .f32 hφ) (h1 : S25000.ShapeCasts S25000x1)
    (h2 : S25000x1.Broadcasts S25000x100) (r : Fin 25000) (k : Fin 100) :
    broadcastTo S25000x100 (shapeCast S25000x1 (maximumf (F := Ideal) (φ := .f32) (broadcast S25000 (FloatOps.ofBits (F := Ideal) FTy.f32 0xFF800000#32))
      (multiReduction FKind.maximumf [1] S25000 x0 (0xFF800000#32) h hφ hacc)) h1) h2 (ix2 r k)
      = rowMax (fun k' => x0 (ix2 r k')) :=
  (col_apply _ h1 h2 r k).trans ((max_bcast_apply _ _ _).trans (rowMax_apply x0 h hφ hacc r))

/-- exp of a logit relative to the row maximum, at (r, k). -/
theorem rowExp_apply (x0 : S25000x100.Idx → EReal) (h : S25000x100.Reduces [1] S25000) (hφ : FKind.Formats .f32)
    (hacc : (0xFF800000#32 : BitVec 32) = FKind.maximumf.neutral .f32 hφ) (h1 : S25000.ShapeCasts S25000x1)
    (h2 : S25000x1.Broadcasts S25000x100) (r : Fin 25000) (k : Fin 100) :
    exp (F := Ideal) (φ := .f32) (subf (F := Ideal) (φ := .f32) x0 (broadcastTo S25000x100 (shapeCast S25000x1 (maximumf (F := Ideal) (φ := .f32) (broadcast S25000 (FloatOps.ofBits (F := Ideal) FTy.f32 0xFF800000#32))
      (multiReduction FKind.maximumf [1] S25000 x0 (0xFF800000#32) h hφ hacc)) h1) h2)) (ix2 r k)
      = rowExp (fun k' => x0 (ix2 r k')) k :=
  (exp_sub_apply _ _ _).trans (congrArg (fun z : EReal => Ideal.exp (x0 (ix2 r k) - z)) (rowMaxCol_apply x0 h hφ hacc h1 h2 r k))

/-- The kernel's softmax at (r, k) is the specification's probability of class k in row r. -/
theorem pay6_apply (x0 : S25000x100.Idx → EReal) (r : Fin 25000) (k : Fin 100) :
    k0_pay6 (F := Ideal) x0 (ix2 r k) = prob (fun k' => x0 (ix2 r k')) k := by
  unfold k0_pay6 prob
  refine (divf_apply _ _ _).trans (congrArg₂ Ideal.div (rowExp_apply x0 _ _ _ _ _ r k) ?_)
  refine (col_apply _ _ _ r k).trans ((Ideal.multiReduction_add_single _ _ _ _ _ (ix1 r)).trans
    (Finset.sum_congr rfl fun k' _ => ?_))
  exact (congrArg _ (lift_cls _ r k')).trans (rowExp_apply x0 _ _ _ _ _ r k')

/-- The bin index, element by element. -/
theorem bin_struct (p : S25000x100.Idx → EReal) (i : S25000x100.Idx) :
    minsi (broadcast S25000x100 14#32) (maxsi (broadcast S25000x100 0#32) (subi (fptosi (F := Ideal) (φ := .f32) 32
      (ceil (F := Ideal) (φ := .f32) (mulf (F := Ideal) (φ := .f32) p (broadcast S25000x100 (Scalar.ofBits (F := Ideal) .f32 0x41700000#32)))))
      (broadcast S25000x100 1#32))) i = binOf (p i) := rfl

/-- The kernel's bin index at (r, k) is the bin of that probability. -/
theorem pay7_apply (x0 : S25000x100.Idx → EReal) (r : Fin 25000) (k : Fin 100) :
    k0_pay7 (F := Ideal) x0 (ix2 r k) = binOf (prob (fun k' => x0 (ix2 r k')) k) := by
  unfold k0_pay7
  exact (bin_struct _ _).trans (congrArg binOf (pay6_apply x0 r k))

/-- A one-bit word widened to 32 bits and read as a signed integer is the bit. -/
theorem bit_toInt (b : BitVec 1) : (((b.setWidth 32).toInt : ℝ) : EReal) = ((b.toNat : ℝ) : EReal) := by
  rcases BitVec.eq_zero_or_eq_one b with h | h <;> subst h <;> simp

/-- The signed difference, element by element: p - [l = i] where p > 0, else 0. -/
theorem diff_struct (p : S25000x100.Idx → EReal) (l i : IVec S25000x100 32) (h : 1 < 32) (j : S25000x100.Idx) :
    select (cmpf (F := Ideal) (φ := .f32) .ogt p (broadcast S25000x100 (Scalar.ofBits (F := Ideal) .f32 0x00000000#32)))
      (subf (F := Ideal) (φ := .f32) p (sitofp (F := Ideal) .f32 (extui 32 (cmpi .eq l i) h)))
      (broadcast S25000x100 (Scalar.ofBits (F := Ideal) .f32 0x00000000#32)) j
    = Scalar.select (Ideal.cmp .ogt (p j) 0) (p j - (((IntOp.cmpi .eq (l j) (i j)).toNat : ℝ) : EReal)) 0 := by
  have e : select (cmpf (F := Ideal) (φ := .f32) .ogt p (broadcast S25000x100 (Scalar.ofBits (F := Ideal) .f32 0x00000000#32)))
      (subf (F := Ideal) (φ := .f32) p (sitofp (F := Ideal) .f32 (extui 32 (cmpi .eq l i) h)))
      (broadcast S25000x100 (Scalar.ofBits (F := Ideal) .f32 0x00000000#32)) j
    = Scalar.select (Ideal.cmp .ogt (p j) (Ideal.ofBits .f32 0x00000000#32))
      (p j - ((((IntOp.cmpi .eq (l j) (i j)).setWidth 32).toInt : ℝ) : EReal)) (Ideal.ofBits .f32 0x00000000#32) := rfl
  rw [e, Ideal.ofBits_zero_f32, bit_toInt]

/-- The kernel's signed difference at (r, k) is the specification's, for the label of row r. -/
theorem pay8_apply (x0 : S25000x100.Idx → EReal) (x1 : S25000x1.Idx → BitVec 32) (r : Fin 25000) (k : Fin 100) :
    k0_pay8 (F := Ideal) x0 x1 (ix2 r k) = diff (fun k' => x0 (ix2 r k')) (x1 (ix2 r (0 : Fin 1))) k := by
  have hl : ∀ h1 h2, broadcastTo S25000x100 (shapeCast S25000x1 x1 h1) h2 (ix2 r k) = x1 (ix2 r (0 : Fin 1)) :=
    fun h1 h2 => (broadcastTo_a1_ab_apply _ h2 r k).trans (congrFun (shapeCast_self x1 h1) _)
  have hi : ∀ h, iota .tc S25000x100 32 [1] h (ix2 r k) = BitVec.ofNat 32 k.val := fun h => by
    have e : iota .tc S25000x100 32 [1] h (ix2 r k) = BitVec.ofNat 32 (0 * 100 + k.val) := rfl
    rw [e, Nat.zero_mul, Nat.zero_add]
  unfold k0_pay8
  refine (diff_struct _ _ _ _ _).trans ?_
  unfold diff hit
  rw [pay6_apply, hl, hi]

end Cert.Ece.Block
end
-- ==== Proof.SpecFacts.lean ====
/-
  Facts about the specification that do not mention either program.

  A row of real logits has a real maximum, so each exponential relative to it is a positive real, their sum is a
  positive real, and every softmax probability is a real in (0, 1].  Two regroupings of finite sums: the 500000
  rows as 20 groups of 25000 consecutive rows, and 20 groups as the first ten followed by the last ten.
-/
import proofs.«153686_j5634997093213_2_alg».proof.Proof.Spec
import Mathlib.Data.EReal.Operations
import Mathlib.Algebra.BigOperators.Fin
import Mathlib.Analysis.SpecialFunctions.Exp

noncomputable section

namespace Cert.Ece

open Idealize.ShloMosaic Idealize.ShloMosaic.ValueIdx

/-- The word of -inf denotes the bottom of the extended reals. -/
theorem negInf_eq_bot : Ideal.ofBits .f32 0xFF800000#32 = (⊥ : EReal) := by
  simp [Ideal.ofBits, Ideal.ieee]

/-- A finite sum of reals, taken in the extended reals, is the real sum. -/
theorem coe_sum_real {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- The maximum of a row of reals is a real. -/
theorem rowMax_real (xr : Fin 100 → EReal) (h : ∀ k, ∃ r : ℝ, xr k = (r : EReal)) :
    ∃ M : ℝ, rowMax xr = (M : EReal) := by
  choose r hr using h
  have hne_bot : (Finset.univ : Finset (Fin 100)).fold max (⊥ : EReal) xr ≠ ⊥ := by
    have h0 : xr 0 ≤ (Finset.univ : Finset (Fin 100)).fold max (⊥ : EReal) xr :=
      (Finset.le_fold_max _).mpr (Or.inr ⟨0, Finset.mem_univ _, le_rfl⟩)
    intro hb
    rw [hb, hr 0] at h0
    exact absurd h0 (not_le.mpr (EReal.bot_lt_coe _))
  have hne_top : (Finset.univ : Finset (Fin 100)).fold max (⊥ : EReal) xr ≠ ⊤ := by
    have : (Finset.univ : Finset (Fin 100)).fold max (⊥ : EReal) xr < ⊤ :=
      (Finset.fold_max_lt _).mpr ⟨bot_lt_top, fun k _ => by rw [hr k]; exact EReal.coe_lt_top _⟩
    exact this.ne
  obtain ⟨M, hM⟩ : ∃ M : ℝ, ((M : ℝ) : EReal) = (Finset.univ : Finset (Fin 100)).fold max (⊥ : EReal) xr :=
    ⟨_, EReal.coe_toReal hne_top hne_bot⟩
  exact ⟨M, by rw [rowMax, negInf_eq_bot, ← hM, max_eq_right bot_le]⟩

/-- Each exponential relative to the row's maximum is a positive real. -/
theorem rowExp_real (xr : Fin 100 → EReal) (h : ∀ k, ∃ r : ℝ, xr k = (r : EReal)) :
    ∃ e : Fin 100 → ℝ, (∀ k, 0 < e k) ∧ ∀ k, rowExp xr k = (e k : EReal) := by
  obtain ⟨M, hM⟩ := rowMax_real xr h
  choose r hr using h
  refine ⟨fun k => Real.exp (r k - M), fun k => Real.exp_pos _, fun k => ?_⟩
  rw [rowExp, hM, hr k, ← EReal.coe_sub, Ideal.exp_coe]

/-- Every softmax probability of a row of reals is a real in (0, 1]. -/
theorem prob_real (xr : Fin 100 → EReal) (h : ∀ k, ∃ r : ℝ, xr k = (r : EReal)) (k : Fin 100) :
    ∃ p : ℝ, 0 < p ∧ p ≤ 1 ∧ prob xr k = (p : EReal) := by
  obtain ⟨e, hpos, he⟩ := rowExp_real xr h
  have hS : (0 : ℝ) < ∑ k' : Fin 100, e k' := Finset.sum_pos (fun k' _ => hpos k') Finset.univ_nonempty
  have hle : e k ≤ ∑ k' : Fin 100, e k' :=
    Finset.single_le_sum (f := e) (fun k' _ => (hpos k').le) (Finset.mem_univ k)
  refine ⟨e k / ∑ k' : Fin 100, e k', div_pos (hpos k) hS, (div_le_one hS).mpr hle, ?_⟩
  have hsum : ∑ k' : Fin 100, rowExp xr k' = ((∑ k' : Fin 100, e k' : ℝ) : EReal) := by
    rw [← coe_sum_real]; exact Finset.sum_congr rfl (fun k' _ => he k')
  rw [prob, hsum, he k, Ideal.div_coe hS.ne', ← EReal.coe_mul, mul_one_div]

/-- The rows as 20 groups of 25000 consecutive rows. -/
theorem sum_rows {M : Type*} [AddCommMonoid M] (f : Fin 500000 → M) :
    ∑ n : Fin 500000, f n = ∑ t : Fin 20, ∑ r : Fin 25000, f ⟨t.val * 25000 + r.val, by omega⟩ := by
  rw [← Fintype.sum_prod_type' (f := fun (t : Fin 20) (r : Fin 25000) => f ⟨t.val * 25000 + r.val, by omega⟩)]
  symm
  refine Fintype.sum_equiv (finProdFinEquiv (m := 20) (n := 25000)) _ _ (fun x => ?_)
  refine congrArg f (Fin.ext ?_)
  show x.1.val * 25000 + x.2.val = x.2.val + 25000 * x.1.val
  omega

/-- Twenty groups as the first ten followed by the last ten. -/
theorem sum_points {M : Type*} [AddCommMonoid M] (g : Fin 20 → M) :
    ∑ t : Fin 20, g t = (∑ i : Fin 10, g ⟨i.val, by omega⟩) + ∑ i : Fin 10, g ⟨10 + i.val, by omega⟩ :=
  Fin.sum_univ_add (a := 10) (b := 10) g

end Cert.Ece

end
-- ==== Proof.Glue.lean ====
/-
  From the blocks' contributions to the specification, and the kernel's run.

  The block fetched at point t is rows 25000 t ... 25000 t + 24999 of the batch, so its contribution to a cell is the
  sum of the specification's cells over those rows.  The two output blocks are the sums over the first ten and the
  last ten of the twenty blocks: together, the cell summed over all rows.  The host's last operations then give
  the per-class errors and the scalar error of the specification.
-/
import proofs.«153686_j5634997093213_2_alg».proof.Proof.Points
import proofs.«153686_j5634997093213_2_alg».proof.Proof.BlockRows
import proofs.«153686_j5634997093213_2_alg».proof.Proof.SpecFacts

noncomputable section

open Idealize.ShloMosaic Idealize.ShloMosaic.TcCoe Idealize.SL.Sem

namespace Cert.Ece.Kern

open Cert.KernelIdeal Cert.KernelIdeal.Gen Idealize.ShloMosaic.ValueIdx

variable (m : (ℓ : Loc nD τ sig) → Buf (Elt Ideal) ℓ) (ρ : Dev nD → PrngReg)

/-- The logits a core was launched with. -/
abbrev argX (c : Dev nD) : (⟨2, ![500000, 100]⟩ : Shape).Idx → EReal := m ((c.tc : Thread nD τ).loc main_arg0)
/-- The labels a core was launched with. -/
abbrev argL (c : Dev nD) : (⟨1, ![500000]⟩ : Shape).Idx → BitVec 32 := m ((c.tc : Thread nD τ).loc main_arg1)

/-- A block's contribution to a cell is the sum of the specification's cells over the block's rows. -/
theorem cellSum_eq (x0 : S25000x100.Idx → EReal) (x1 : S25000x1.Idx → BitVec 32) (b : Fin 15) (k : Fin 100) :
    Cert.Ece.Block.cellSum (k0_pay7 (F := Ideal) x0) (k0_pay8 (F := Ideal) x0 x1) b k
      = ∑ r : Fin 25000, Cert.Ece.cell (fun k' => x0 (ix2 r k')) (x1 (ix2 r (0 : Fin 1))) b k := by
  unfold Cert.Ece.Block.cellSum Cert.Ece.cell
  refine Finset.sum_congr rfl fun r _ => ?_
  rw [Cert.Ece.Block.pay7_apply, Cert.Ece.Block.pay8_apply, Ideal.ofBits_zero_f32]

/-- The contribution of the block at point t, over the rows of the batch it is. -/
theorem blockCell_eq (c : Dev nD) (t : Fin cfg0.N) (b : Fin 15) (k : Fin 100) :
    blockCell m c t b k
      = ∑ r : Fin 25000, Cert.Ece.cell (fun k' => argX m c (ix2 (rowOf t r) k')) (argL m c (ix1 (rowOf t r))) b k := by
  refine (cellSum_eq (iblk m c 0 t) (iblk m c 1 t) b k).trans (Finset.sum_congr rfl fun r _ => ?_)
  have ex : (fun k' => (iblk m c 0 t : S25000x100.Idx → EReal) (ix2 r k')) = fun k' => argX m c (ix2 (rowOf t r) k') :=
    funext fun k' => iblk0_apply m c t r k'
  have el : (iblk m c 1 t : S25000x1.Idx → BitVec 32) (ix2 r (0 : Fin 1)) = argL m c (ix1 (rowOf t r)) :=
    iblk1_apply m c t r
  exact (congrArg (fun xr => Cert.Ece.cell xr ((iblk m c 1 t : S25000x1.Idx → BitVec 32) (ix2 r (0 : Fin 1))) b k) ex).trans
    (congrArg (fun l => Cert.Ece.cell (fun k' => argX m c (ix2 (rowOf t r) k')) l b k) el)

/-- The same at a position among the twenty. -/
theorem cellAt_eq (c : Dev nD) (n : ℕ) (hn : n < 20) (b : Fin 15) (k : Fin 100) :
    cellAt m c n b k
      = ∑ r : Fin 25000, Cert.Ece.cell (fun k' => argX m c (ix2 ⟨n * 25000 + r.val, by have := r.isLt; omega⟩ k'))
          (argL m c (ix1 ⟨n * 25000 + r.val, by have := r.isLt; omega⟩)) b k := by
  have h : n < cfg0.N := lt_of_lt_of_eq hn (show cfg0.N = 20 from N_0).symm
  rw [cellAt_of_lt m c n h, blockCell_eq]

/-- The two output blocks add up to the cell summed over all rows. -/
theorem outW_total (c : Dev nD) (b : Fin 15) (k : Fin 100) :
    outW m c (ix3 (0 : Fin 2) b k) + outW m c (ix3 (1 : Fin 2) b k) = Cert.Ece.total (argX m c) (argL m c) b k := by
  unfold Cert.Ece.total
  refine Eq.trans ?_ ((sum_rows fun n => Cert.Ece.cell (fun k' => argX m c (ix2 n k')) (argL m c (ix1 n)) b k).trans
    (sum_points _)).symm
  rw [outW_apply, outW_apply]
  refine congr (congrArg HAdd.hAdd (Finset.sum_congr rfl fun i _ => ?_)) (Finset.sum_congr rfl fun i _ => ?_)
  · have e : (0 : Fin 2).val * 10 + i.val = i.val := by show 0 * 10 + i.val = i.val; omega
    rw [e, cellAt_eq m c i.val (by have := i.isLt; omega)]
  · have e : (1 : Fin 2).val * 10 + i.val = 10 + i.val := by show 1 * 10 + i.val = 10 + i.val; omega
    rw [e, cellAt_eq m c (10 + i.val) (by have := i.isLt; omega)]

/-- The kernel's program, run: the scalar error and the per-class errors of the specification, the arguments
    unchanged. -/
theorem kernel_run :
    θ_run defs (onTc (τ := τ) (main (F := Ideal))) ⟨m, fun _ => 0, ρ⟩ (fun r => ∀ c : Dev nD,
      r.2.mem ((c.tc : Thread nD τ).loc main_v8) = Cert.Ece.sce (argX m c) (argL m c)
      ∧ r.2.mem ((c.tc : Thread nD τ).loc main_v6) = Cert.Ece.perClass (argX m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    have hp := Cert.Ece.Tail.perClassOf_eq (outW m c) (argX m c) (argL m c) (fun b k => outW_total m c b k)
    refine ⟨(h c).1.trans ?_, (h c).2.1.trans hp, (h c).2.2.1, (h c).2.2.2⟩
    rw [hp]
    exact Cert.Ece.Tail.sceOf_eq (argX m c) (argL m c))
    (run_results m ρ (outW m) (fun c t h9 b k => out_block m c t h9 b k))

end Cert.Ece.Kern

end
-- ==== Proof.RefRow.lean ====
/-
  The reference program's per-element stages, read at row n and class k.

  Row n of the logits is k ↦ x (n, k).  The program takes the row's maximum (a fold of max from -inf, then once more
  against -inf), exponentiates the logits relative to it, sums the exponentials along the row and divides: the
  softmax probability.  From the probability p it computes the bin clamp(ceil(15 p) - 1, 0, 14), the key
  class * 15 + bin, the weight [p > 0] and the indicator [label = class], and the two weighted values p * weight and
  indicator * weight.  The flat tensors read the same values at position n * 100 + k.
-/
import proofs.«153686_j5634997093213_2_alg».proof.Proof.Gen.ReferenceIdeal.Read
import proofs.«153686_j5634997093213_2_alg».proof.Proof.Spec
import Idealize.ShloMosaic.Lib.ValueIdx

noncomputable section

namespace Cert.Ece.Ref

open Cert.ReferenceIdeal Cert.ReferenceIdeal.Gen Cert.ReferenceIdeal.Read Idealize.ShloMosaic Idealize.ShloMosaic.ValueIdx

/-! ## The row maximum -/

/-- Row index n with class k put back on the reduced axis is (n, k). -/
theorem lift_row (h : S500000x100.Reduces [1] S500000) (n : Fin 500000) (k : Fin (S500000x100.size 1)) :
    h.lift (ix1 n) k = ix2 n (⟨k.val, k.isLt⟩ : Fin 100) := by
  funext c; apply Fin.ext
  fin_cases c <;> rfl

theorem v2_at (x : S500000x100.Idx → EReal) (n : Fin 500000) :
    val_main_v2 (F := Ideal) x (ix1 n) = rowMax (fun k => x (ix2 n k)) := by
  have h : S500000x100.Reduces [1] S500000 := by decide
  rw [val_main_v2_apply, val_main_v1_apply, val_main_cst_0_apply]
  unfold val_main_v0
  have hr := Host.reduce_eq_fold_single (FloatOps.maximumf (F := Ideal) (φ := .f32)) x (val_main_cst (F := Ideal))
    reducesTo_S500000x100_S500000_d1 h h_S_ (ix1 n)
  refine (congrArg (FloatOps.maximumf (F := Ideal) (φ := .f32) (FloatOps.ofBits .f32 0xFF800000#32)) hr).trans ?_
  have hf : (x ∘ h.lift (ix1 n)) = fun k : Fin 100 => x (ix2 n k) := funext fun k => congrArg x (lift_row h n k)
  show max (Ideal.ofBits .f32 0xFF800000#32)
      (Finset.fold max (Ideal.ofBits .f32 0xFF800000#32) (x ∘ h.lift (ix1 n)) (Finset.univ : Finset (Fin 100))) = _
  rw [hf]
  rfl

/-! ## The softmax -/

theorem v6_at (x : S500000x100.Idx → EReal) (n : Fin 500000) (k : Fin 100) :
    val_main_v6 (F := Ideal) x (ix2 n k) = rowExp (fun k' => x (ix2 n k')) k := by
  have e : idx_main_v3 (idx_main_v4 (ix2 n k)) = ix1 n :=
    funext fun a => Fin.ext (by match a with | ⟨0, _⟩ => rfl)
  rw [val_main_v6_apply, val_main_v5_apply, val_main_v4_apply, val_main_v3_apply, e, v2_at]
  rfl

theorem v7_at (x : S500000x100.Idx → EReal) (n : Fin 500000) :
    val_main_v7 (F := Ideal) x (ix1 n) = ∑ k : Fin 100, rowExp (fun k' => x (ix2 n k')) k := by
  rw [val_main_v7_apply, val_main_cst_1_apply]
  have e : ∀ k : Fin 100, idx_main_v7 (ix1 n) k = ix2 n k := fun k =>
    funext fun a => Fin.ext (by match a with | ⟨0, _⟩ => rfl | ⟨1, _⟩ => rfl)
  simp only [e, v6_at, Ideal.ofBits_def, Ideal.ofBits_zero_f32, zero_add]

theorem v10_at (x : S500000x100.Idx → EReal) (n : Fin 500000) (k : Fin 100) :
    val_main_v10 (F := Ideal) x (ix2 n k) = prob (fun k' => x (ix2 n k')) k := by
  have e : idx_main_v8 (idx_main_v9 (ix2 n k)) = ix1 n :=
    funext fun a => Fin.ext (by match a with | ⟨0, _⟩ => rfl)
  rw [val_main_v10_apply, val_main_v9_apply, val_main_v8_apply, e, v7_at, v6_at]
  rfl

/-! ## Weight, bin, key -/

/-- The weight's bit: whether the probability is positive. -/
theorem v12_at (x : S500000x100.Idx → EReal) (n : Fin 500000) (k : Fin 100) :
    val_main_v12 (F := Ideal) x (ix2 n k) = Ideal.cmp .ogt (prob (fun k' => x (ix2 n k')) k) 0 := by
  rw [val_main_v12_apply, val_main_v11_apply, val_main_cst_2_apply, v10_at]
  simp only [Ideal.cmpf_def, Ideal.ofBits_def, Ideal.ofBits_zero_f32]

theorem v27_at (x : S500000x100.Idx → EReal) (n : Fin 500000) (k : Fin 100) :
    val_main_v27 (F := Ideal) x (ix2 n k)
      = (((Ideal.cmp .ogt (prob (fun k' => x (ix2 n k')) k) 0).toNat : ℝ) : EReal) := by
  rw [val_main_v27_apply, v12_at]
  rfl

theorem v19_at (x : S500000x100.Idx → EReal) (n : Fin 500000) (k : Fin 100) :
    val_main_v19 (F := Ideal) x (ix2 n k) = binOf (prob (fun k' => x (ix2 n k')) k) := by
  rw [val_main_v19_apply, val_main_call0_v4_apply, val_main_call0_v3_apply, val_main_c_5_apply,
    val_main_call0_v2_apply, val_main_call0_v1_apply, val_main_call0_v0_apply, val_main_c_4_apply,
    val_main_v18_apply, val_main_v17_apply, val_main_c_apply, val_main_v16_apply, val_main_v15_apply,
    val_main_v14_apply, val_main_v13_apply, val_main_cst_3_apply, v10_at]
  rfl

theorem v25_at (x : S500000x100.Idx → EReal) (n : Fin 500000) (k : Fin 100) :
    val_main_v25 (F := Ideal) x (ix2 n k)
      = IntOp.addi (IntOp.muli (BitVec.ofNat 32 k.val) 15#32) (binOf (prob (fun k' => x (ix2 n k')) k)) := by
  rw [val_main_v25_apply, val_main_v24_apply, val_main_v23_apply, val_main_v22_apply, val_main_c_6_apply,
    val_main_v21_apply, val_main_v20_apply, v19_at]

/-- The probability weighted by [p > 0]. -/
theorem v38_at (x : S500000x100.Idx → EReal) (n : Fin 500000) (k : Fin 100) :
    val_main_v38 (F := Ideal) x (ix2 n k)
      = prob (fun k' => x (ix2 n k')) k
        * (((Ideal.cmp .ogt (prob (fun k' => x (ix2 n k')) k) 0).toNat : ℝ) : EReal) := by
  rw [val_main_v38_apply, v10_at, v27_at]
  rfl

/-- The indicator [label = class]. -/
theorem v32_at (lab : S500000.Idx → BitVec 32) (n : Fin 500000) (k : Fin 100) :
    val_main_v32 (F := Ideal) lab (ix2 n k) = (((hit (lab (ix1 n)) k).toNat : ℝ) : EReal) := by
  have e : idx_main_v28 (idx_main_v29 (ix2 n k)) = ix1 n :=
    funext fun a => Fin.ext (by match a with | ⟨0, _⟩ => rfl)
  rw [val_main_v32_apply, val_main_v31_apply, val_main_v29_apply, val_main_v28_apply, e, val_main_v30_apply,
    val_main_v21_apply, val_main_v20_apply]
  rfl

/-- The indicator weighted by [p > 0]. -/
theorem v44_at (x : S500000x100.Idx → EReal) (lab : S500000.Idx → BitVec 32) (n : Fin 500000) (k : Fin 100) :
    val_main_v44 (F := Ideal) x lab (ix2 n k)
      = (((hit (lab (ix1 n)) k).toNat : ℝ) : EReal)
        * (((Ideal.cmp .ogt (prob (fun k' => x (ix2 n k')) k) 0).toNat : ℝ) : EReal) := by
  rw [val_main_v44_apply, v32_at, v27_at]
  rfl

/-! ## The flat tensors: position q holds element (q / 100, q % 100) -/

/-- Flat position q as (row, class). -/
abbrev unflat (q : Fin 50000000) : S500000x100.Idx :=
  ix2 (⟨q.val / 100, by have := q.isLt; omega⟩ : Fin 500000) (⟨q.val % 100, by omega⟩ : Fin 100)

theorem idx26_flat (q : Fin 50000000) : idx_main_v26 (ix1 q) = unflat q :=
  funext fun a => Fin.ext (by match a with | ⟨0, _⟩ => rfl | ⟨1, _⟩ => rfl)

/-- The key column at (q, 0) is the key of element q. -/
theorem v41_flat (x : S500000x100.Idx → EReal) (q : Fin 50000000) :
    val_main_v41 (F := Ideal) x (ix2 q 0) = val_main_v25 (F := Ideal) x (unflat q) := by
  have e : idx_main_v41 (ix2 q (0 : Fin 1)) = ix1 q :=
    funext fun a => Fin.ext (by match a with | ⟨0, _⟩ => rfl)
  rw [val_main_v41_apply, e, val_main_v26_apply, idx26_flat]

theorem v47_flat (x : S500000x100.Idx → EReal) (q : Fin 50000000) :
    val_main_v47 (F := Ideal) x (ix2 q 0) = val_main_v25 (F := Ideal) x (unflat q) := by
  have e : idx_main_v47 (ix2 q (0 : Fin 1)) = ix1 q :=
    funext fun a => Fin.ext (by match a with | ⟨0, _⟩ => rfl)
  rw [val_main_v47_apply, e, val_main_v26_apply, idx26_flat]

theorem v39_flat (x : S500000x100.Idx → EReal) (q : Fin 50000000) :
    val_main_v39 (F := Ideal) x (ix1 q) = val_main_v38 (F := Ideal) x (unflat q) := by
  have e : idx_main_v39 (ix1 q) = unflat q :=
    funext fun a => Fin.ext (by match a with | ⟨0, _⟩ => rfl | ⟨1, _⟩ => rfl)
  rw [val_main_v39_apply, e]

theorem v45_flat (x : S500000x100.Idx → EReal) (lab : S500000.Idx → BitVec 32) (q : Fin 50000000) :
    val_main_v45 (F := Ideal) x lab (ix1 q) = val_main_v44 (F := Ideal) x lab (unflat q) := by
  have e : idx_main_v45 (ix1 q) = unflat q :=
    funext fun a => Fin.ext (by match a with | ⟨0, _⟩ => rfl | ⟨1, _⟩ => rfl)
  rw [val_main_v45_apply, e]

end Cert.Ece.Ref

end
-- ==== Proof.RefScatter.lean ====
/-
  The accumulating scatter of 50000000 values into 1500 cells, read at a cell.

  The scatter's index tensor has one column; the value at flat position q is added to the cell whose number is
  the signed reading of the key at (q, 0), when that number is a cell (0 ≤ key < 1500), and is dropped otherwise.
  So a cell ends at its starting value plus the sum, over all flat positions, of the values whose key is the cell.
-/
import Idealize.ShloMosaic.PureOps.Ideal
import Idealize.ShloMosaic.PureOps.Ideal.Laws
import Idealize.ShloMosaic.Lib.ValueIdx

noncomputable section

namespace Cert.Ece.Ref

open Idealize.ShloMosaic Idealize.ShloMosaic.ValueIdx

/-- The 1500 cells, the one-column key tensor, and the flat values. -/
abbrev SCells : Shape := ⟨1, ![1500]⟩
abbrev SKeys : Shape := ⟨2, ![50000000, 1]⟩
abbrev SFlat : Shape := ⟨1, ![50000000]⟩

/-- The scatter's dimension numbers: no window axis, the one operand axis inserted and addressed by the key. -/
abbrev cellDims (h : ScatterDims.WF SCells SKeys SFlat [] [0] [0] 1) : ScatterDims SCells SKeys SFlat :=
  { updateWindowDims := [], insertedWindowDims := [0], scatterDimsToOperandDims := [0], indexVectorDim := 1, wf := h }

/-- A rank-1 index is its coordinate, so a sum over the indices is the sum over the coordinates. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- There is no window: every update lands exactly at its start. -/
theorem cellDims_window (h : ScatterDims.WF SCells SKeys SFlat [] [0] [0] 1) (j : SFlat.Idx) (a : Fin SCells.rank) :
    (cellDims h).window j a = 0 := by
  have ha : a = 0 := Subsingleton.elim _ _
  subst ha
  unfold ScatterDims.window
  exact dif_neg (show (0 : Fin SCells.rank) ∉ SCells.kept [0] by decide)

/-- The start of update q on the one operand axis is the key at (q, 0), read signed. -/
theorem cellDims_start (h : ScatterDims.WF SCells SKeys SFlat [] [0] [0] 1) (q : Fin 50000000) (idx : IVec SKeys 32)
    (a : Fin SCells.rank) :
    (cellDims h).start (ix1 q) idx a = (idx (ix2 q 0)).toInt := by
  have ha : a = 0 := Subsingleton.elim _ _
  subst ha
  unfold ScatterDims.start
  rw [dif_pos (show (0 : Fin SCells.rank) ∈ ([0] : List (Fin SCells.rank)) by decide)]
  refine congrArg (fun t => (idx t).toInt) ?_
  funext b
  match b with
  | ⟨0, _⟩ => exact Fin.ext rfl
  | ⟨1, _⟩ => exact Fin.ext rfl

/-- Update q lands on cell c exactly when its key, read signed, is c. -/
theorem cellDims_resultIdx (h : ScatterDims.WF SCells SKeys SFlat [] [0] [0] 1) (q : Fin 50000000) (idx : IVec SKeys 32)
    (c : Fin 1500) :
    (cellDims h).resultIdx? (ix1 q) idx = some (ix1 c) ↔ (idx (ix2 q 0)).toInt = (c.val : Int) := by
  have hc := c.isLt
  unfold ScatterDims.resultIdx?
  by_cases hin : ∀ a, 0 ≤ (cellDims h).start (ix1 q) idx a + (cellDims h).window (ix1 q) a
      ∧ (cellDims h).start (ix1 q) idx a + (cellDims h).window (ix1 q) a < SCells.size a
  · rw [dif_pos hin]
    have h0 := hin 0
    rw [cellDims_start, cellDims_window] at h0
    constructor
    · intro e
      have e1 := congrArg Fin.val (congrFun (Option.some.inj e) 0)
      have e2 : ((cellDims h).start (ix1 q) idx 0 + (cellDims h).window (ix1 q) 0).toNat = c.val := e1
      rw [cellDims_start, cellDims_window] at e2
      omega
    · intro e
      refine congrArg some (funext fun a => ?_)
      have ha : a = 0 := Subsingleton.elim _ _
      subst ha
      refine Fin.ext ?_
      show ((cellDims h).start (ix1 q) idx 0 + (cellDims h).window (ix1 q) 0).toNat = c.val
      rw [cellDims_start, cellDims_window]
      omega
  · rw [dif_neg hin]
    constructor
    · intro e; cases e
    · intro e
      exfalso
      refine hin fun a => ?_
      have ha : a = 0 := Subsingleton.elim _ _
      subst ha
      rw [cellDims_start, cellDims_window]
      show 0 ≤ (idx (ix2 q 0)).toInt + ((0 : Nat) : Int) ∧ (idx (ix2 q 0)).toInt + ((0 : Nat) : Int) < ((1500 : Nat) : Int)
      omega

/-- A cell after the scatter: its starting value plus the values of the flat positions whose key is the cell. -/
theorem scatter_cell (h : ScatterDims.WF SCells SKeys SFlat [] [0] [0] 1) (x : SCells.Idx → EReal) (idx : IVec SKeys 32)
    (upd : SFlat.Idx → EReal) (c : Fin 1500) :
    Ideal.hostScatterAdd (cellDims h) x idx upd (ix1 c)
      = x (ix1 c) + ∑ q : Fin 50000000, if (idx (ix2 q 0)).toInt = (c.val : Int) then upd (ix1 q) else 0 := by
  unfold Ideal.hostScatterAdd
  refine congrArg (x (ix1 c) + ·) ?_
  rw [Finset.sum_filter, sum_idx1]
  refine Finset.sum_congr rfl fun q _ => ?_
  exact if_congr (cellDims_resultIdx h q idx c) rfl rfl

end Cert.Ece.Ref

end
-- ==== Proof.RefAlg.lean ====
/-
  The arithmetic behind the cells, free of any program.

  * A difference of two sums of reals is the sum of the differences (false on the extended reals in general:
    it needs every term real).
  * A row's 100 classes carry keys class * 15 + bin with 0 ≤ bin ≤ 14, as 32-bit words; such a key, read signed,
    is the number class * 15 + bin, so it names the cell (class, bin) and no other.  Summing, over a row's classes,
    the values whose key is a given cell therefore keeps at most the one value of that cell's class.
  * A value p and an indicator c, both weighted by the same 0/1 weight, differ by (p - c) where the weight is 1
    and by 0 where it is 0.
  * The flat positions 0 … 49999999 are the pairs (row, class) in row-major order.
-/
import Idealize.ShloMosaic.PureOps.Ideal
import Idealize.ShloMosaic.PureOps.Ideal.Laws

noncomputable section

namespace Cert.Ece.Ref

open Idealize.ShloMosaic

/-! ## Sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two sums of reals, each started from zero: their difference is the sum of the differences. -/
theorem sum_sub_sum {ι : Type*} [Fintype ι] (A B : ι → EReal) (hA : ∀ i, ∃ r : ℝ, A i = r) (hB : ∀ i, ∃ r : ℝ, B i = r) :
    (0 + ∑ i, A i) - (0 + ∑ i, B i) = ∑ i, (A i - B i) := by
  choose a ha using hA
  choose b hb using hB
  simp only [ha, hb, zero_add]
  rw [← coe_sum, ← coe_sum, ← EReal.coe_sub, ← Finset.sum_sub_distrib, coe_sum]
  exact Finset.sum_congr rfl fun i _ => EReal.coe_sub _ _

/-! ## The clamp and the key -/

/-- A word clamped to [0, 14] (signed) is one of the fifteen words 0 … 14. -/
theorem clamp_eq_ofNat (v : BitVec 32) :
    ∃ b : Fin 15, IntOp.minsi 14#32 (IntOp.maxsi 0#32 v) = BitVec.ofNat 32 b.val := by
  unfold IntOp.minsi IntOp.maxsi
  by_cases h0 : v.slt 0#32
  · rw [if_pos h0]
    exact ⟨⟨0, by omega⟩, by rw [if_neg (by decide)]⟩
  · rw [if_neg h0]
    by_cases h1 : (14#32 : BitVec 32).slt v
    · exact ⟨⟨14, by omega⟩, by rw [if_pos h1]⟩
    · rw [if_neg h1]
      rw [BitVec.slt_iff_toInt_lt] at h0 h1
      have e0 : (0#32 : BitVec 32).toInt = 0 := by decide
      have e14 : (14#32 : BitVec 32).toInt = 14 := by decide
      rw [e0] at h0
      rw [e14] at h1
      have hl := v.isLt
      have hv : v.toNat < 15 := by
        have hc := BitVec.toInt_eq_toNat_cond v
        split at hc <;> omega
      exact ⟨⟨v.toNat, hv⟩, by simp⟩

/-- The key of class k and bin b, read signed, is the number k * 15 + b. -/
theorem key_toInt (k : Fin 100) (b : Fin 15) :
    (IntOp.addi (IntOp.muli (BitVec.ofNat 32 k.val) 15#32) (BitVec.ofNat 32 b.val)).toInt
      = ((k.val * 15 + b.val : Nat) : Int) := by
  unfold IntOp.addi IntOp.muli
  have e15 : (15#32 : BitVec 32) = BitVec.ofNat 32 15 := rfl
  have hk := k.isLt
  have hb := b.isLt
  have hlt : k.val * 15 + b.val < 2 ^ 32 := by omega
  rw [e15, BitVec.ofNat_mul_ofNat, ← BitVec.ofNat_add]
  rw [BitVec.toInt_eq_toNat_of_lt, BitVec.toNat_ofNat, Nat.mod_eq_of_lt hlt]
  rw [BitVec.toNat_ofNat, Nat.mod_eq_of_lt hlt]
  omega

/-- Two keys agree only for the same class and the same bin. -/
theorem key_eq_iff (k k' : Fin 100) (b b' : Fin 15) :
    (IntOp.addi (IntOp.muli (BitVec.ofNat 32 k'.val) 15#32) (BitVec.ofNat 32 b'.val)).toInt
        = ((k.val * 15 + b.val : Nat) : Int) ↔ k' = k ∧ b' = b := by
  rw [key_toInt]
  have hb := b.isLt
  have hb' := b'.isLt
  constructor
  · intro h
    exact ⟨Fin.ext (by omega), Fin.ext (by omega)⟩
  · rintro ⟨rfl, rfl⟩; rfl

/-- Two bins, as words, are equal only when they are the same bin. -/
theorem bin_eq_iff (b b' : Fin 15) :
    IntOp.cmpi .eq (BitVec.ofNat 32 b'.val) (BitVec.ofNat 32 b.val) = 1#1 ↔ b' = b := by
  unfold IntOp.cmpi
  by_cases h : b' = b
  · subst h; simp
  · have hb := b.isLt
    have hb' := b'.isLt
    have hne : BitVec.ofNat 32 b'.val ≠ BitVec.ofNat 32 b.val := by
      intro e
      have e' := congrArg BitVec.toNat e
      rw [BitVec.toNat_ofNat, BitVec.toNat_ofNat] at e'
      exact h (Fin.ext (by omega))
    rw [show (BitVec.ofNat 32 b'.val == BitVec.ofNat 32 b.val) = false from beq_false_of_ne hne]
    simp [h]

/-- Over a row's classes, the values whose key is the cell (k, b) sum to the value of class k when its bin is b,
    and to nothing otherwise. -/
theorem sum_key_select {M : Type} [AddCommMonoid M] (k : Fin 100) (b : Fin 15) (bin : Fin 100 → BitVec 32)
    (hbin : ∀ k', ∃ b' : Fin 15, bin k' = BitVec.ofNat 32 b'.val) (f : Fin 100 → M) :
    (∑ k' : Fin 100, if (IntOp.addi (IntOp.muli (BitVec.ofNat 32 k'.val) 15#32) (bin k')).toInt
        = ((k.val * 15 + b.val : Nat) : Int) then f k' else 0)
      = Scalar.select (IntOp.cmpi .eq (bin k) (BitVec.ofNat 32 b.val)) (f k) 0 := by
  rw [Finset.sum_eq_single k]
  · obtain ⟨b', hb'⟩ := hbin k
    rw [hb']
    unfold Scalar.select
    exact if_congr ((key_eq_iff k k b b').trans ⟨fun h => (bin_eq_iff b b').2 h.2, fun h => ⟨rfl, (bin_eq_iff b b').1 h⟩⟩) rfl rfl
  · intro k' _ hne
    obtain ⟨b', hb'⟩ := hbin k'
    rw [hb', if_neg]
    intro h
    exact hne ((key_eq_iff k k' b b').1 h).1
  · intro h; exact absurd (Finset.mem_univ k) h

/-! ## One element's contribution -/

/-- With the weight g ∈ {0, 1}: p·g and c·g are reals, and p·g - c·g is p - c where g = 1 and 0 where g = 0;
    the same under an outer selection. -/
theorem cell_split (p : EReal) (hp : ∃ r : ℝ, p = r) (cb g : BitVec 1) (c : ℝ) :
    (∃ r : ℝ, Scalar.select cb (p * ((g.toNat : ℝ) : EReal)) 0 = (r : EReal))
    ∧ (∃ r : ℝ, Scalar.select cb ((c : EReal) * ((g.toNat : ℝ) : EReal)) 0 = (r : EReal))
    ∧ Scalar.select cb (p * ((g.toNat : ℝ) : EReal)) 0 - Scalar.select cb ((c : EReal) * ((g.toNat : ℝ) : EReal)) 0
        = Scalar.select cb (Scalar.select g (p - (c : EReal)) 0) 0 := by
  obtain ⟨r, rfl⟩ := hp
  unfold Scalar.select
  by_cases hcb : cb = 1
  · simp only [if_pos hcb]
    refine ⟨⟨r * (g.toNat : ℝ), (EReal.coe_mul _ _).symm⟩, ⟨c * (g.toNat : ℝ), (EReal.coe_mul _ _).symm⟩, ?_⟩
    by_cases hg : g = 1
    · subst hg
      simp
    · have hg0 : g = 0#1 := by
        have := g.isLt
        apply BitVec.eq_of_toNat_eq
        have h1 : g.toNat ≠ 1 := fun e => hg (BitVec.eq_of_toNat_eq e)
        show g.toNat = 0
        omega
      subst hg0
      simp
  · simp only [if_neg hcb]
    exact ⟨⟨0, rfl⟩, ⟨0, rfl⟩, by simp⟩

/-! ## Flat positions -/

/-- A sum over the 50000000 flat positions, each read at (position / 100, position % 100), is the double sum over
    rows and classes. -/
theorem sum_flat {M : Type*} [AddCommMonoid M] (g : Fin 500000 → Fin 100 → M) :
    (∑ q : Fin 50000000, g ⟨q.val / 100, by have := q.isLt; omega⟩ ⟨q.val % 100, by omega⟩)
      = ∑ n : Fin 500000, ∑ k : Fin 100, g n k := by
  let e : Fin 500000 × Fin 100 ≃ Fin 50000000 :=
    { toFun := fun p => ⟨p.1.val * 100 + p.2.val, by have := p.1.isLt; have := p.2.isLt; omega⟩
      invFun := fun q => (⟨q.val / 100, by have := q.isLt; omega⟩, ⟨q.val % 100, by omega⟩)
      left_inv := fun p => by
        have h2 := p.2.isLt
        refine Prod.ext (Fin.ext ?_) (Fin.ext ?_)
        · show (p.1.val * 100 + p.2.val) / 100 = p.1.val; omega
        · show (p.1.val * 100 + p.2.val) % 100 = p.2.val; omega
      right_inv := fun q => by
        refine Fin.ext ?_
        show q.val / 100 * 100 + q.val % 100 = q.val; omega }
  rw [← Fintype.sum_prod_type']
  exact Fintype.sum_equiv e.symm _ _ (fun q => rfl)

end Cert.Ece.Ref

end
-- ==== Proof.RefCells.lean ====
/-
  The cells: confidence sum minus accuracy sum at (class k, bin b) is the specification's total.

  Both scatters start from zero and add, at the cell named by an element's key, the element's weighted value.  Read at
  the cell (k, b): over the flat positions — that is over rows n and classes k' — only k' = k can carry the key
  k * 15 + b, and does exactly when the bin of (n, k) is b.  So each scatter's cell is a sum over the rows, and since
  every term is a real number the difference of the two sums is the sum over the rows of
  [bin = b] * (p * w - c * w) = [bin = b] * [p > 0] * (p - c).
-/
import proofs.«153686_j5634997093213_2_alg».proof.Proof.RefRow
import proofs.«153686_j5634997093213_2_alg».proof.Proof.RefScatter
import proofs.«153686_j5634997093213_2_alg».proof.Proof.RefAlg

noncomputable section

namespace Cert.Ece.Ref

open Cert.ReferenceIdeal Cert.ReferenceIdeal.Gen Cert.ReferenceIdeal.Read Idealize.ShloMosaic Idealize.ShloMosaic.ValueIdx

/-- The cell number of class k and bin b. -/
abbrev cellIx (k : Fin 100) (b : Fin 15) : Fin 1500 :=
  ⟨k.val * 15 + b.val, by have := k.isLt; have := b.isLt; omega⟩

theorem idx43_cell (k : Fin 100) (b : Fin 15) : idx_main_v43 (ix2 k b) = ix1 (cellIx k b) :=
  funext fun a => Fin.ext (by match a with | ⟨0, _⟩ => rfl)

theorem idx49_cell (k : Fin 100) (b : Fin 15) : idx_main_v49 (ix2 k b) = ix1 (cellIx k b) :=
  funext fun a => Fin.ext (by match a with | ⟨0, _⟩ => rfl)

/-- The program's scatter is the exact accumulating scatter with the dimension numbers ([], [0], [0], 1). -/
theorem scatterAdd_ideal (x : S1500.Idx → EReal) (idx : IVec S50000000x1 32) (upd : S50000000.Idx → EReal) :
    Host.scatterAdd (F := Ideal) (φ := .f32) scatter_S1500_S50000000x1_S50000000_n_0_0_1 x idx upd
      = Ideal.hostScatterAdd (cellDims scatter_S1500_S50000000x1_S50000000_n_0_0_1_wf) x idx upd := by
  simp only [Host.scatterAdd, Ideal.hostScatterAdd_def]
  rfl

/-- A sum over the flat positions is the double sum over rows and classes. -/
theorem sum_unflat (g : S500000x100.Idx → EReal) :
    (∑ q : Fin 50000000, g (unflat q)) = ∑ n : Fin 500000, ∑ k : Fin 100, g (ix2 n k) :=
  sum_flat (fun n k => g (ix2 n k))

/-- A bin is one of the fifteen words 0 … 14. -/
theorem binOf_eq_ofNat (p : EReal) : ∃ b : Fin 15, binOf p = BitVec.ofNat 32 b.val := by
  unfold binOf
  exact clamp_eq_ofNat _

/-- The confidence sum of cell (k, b): over the rows whose class-k bin is b, the weighted probability. -/
theorem v42_cell (x : S500000x100.Idx → EReal) (k : Fin 100) (b : Fin 15) :
    val_main_v42 (F := Ideal) x (ix1 (cellIx k b))
      = 0 + ∑ n : Fin 500000,
          Scalar.select (IntOp.cmpi .eq (binOf (prob (fun k' => x (ix2 n k')) k)) (BitVec.ofNat 32 b.val))
            (prob (fun k' => x (ix2 n k')) k
              * (((Ideal.cmp .ogt (prob (fun k' => x (ix2 n k')) k) 0).toNat : ℝ) : EReal)) 0 := by
  unfold val_main_v42
  rw [scatterAdd_ideal, scatter_cell, val_main_v40_apply, val_main_cst_8_apply]
  simp only [Ideal.ofBits_def, Ideal.ofBits_zero_f32, v41_flat, v39_flat]
  refine congrArg (0 + ·) ?_
  refine (sum_unflat (fun i =>
    if (val_main_v25 (F := Ideal) x i).toInt = (((cellIx k b).val : Nat) : Int)
      then val_main_v38 (F := Ideal) x i else 0)).trans ?_
  refine Finset.sum_congr rfl fun n _ => ?_
  simp only [v25_at, v38_at]
  exact sum_key_select k b (fun k' => binOf (prob (fun k'' => x (ix2 n k'')) k')) (fun k' => binOf_eq_ofNat _)
    (fun k' => prob (fun k'' => x (ix2 n k'')) k'
      * (((Ideal.cmp .ogt (prob (fun k'' => x (ix2 n k'')) k') 0).toNat : ℝ) : EReal))

/-- The accuracy sum of cell (k, b): over the rows whose class-k bin is b, the weighted indicator. -/
theorem v48_cell (x : S500000x100.Idx → EReal) (lab : S500000.Idx → BitVec 32) (k : Fin 100) (b : Fin 15) :
    val_main_v48 (F := Ideal) x lab (ix1 (cellIx k b))
      = 0 + ∑ n : Fin 500000,
          Scalar.select (IntOp.cmpi .eq (binOf (prob (fun k' => x (ix2 n k')) k)) (BitVec.ofNat 32 b.val))
            ((((hit (lab (ix1 n)) k).toNat : ℝ) : EReal)
              * (((Ideal.cmp .ogt (prob (fun k' => x (ix2 n k')) k) 0).toNat : ℝ) : EReal)) 0 := by
  unfold val_main_v48
  rw [scatterAdd_ideal, scatter_cell, val_main_v46_apply, val_main_cst_9_apply]
  simp only [Ideal.ofBits_def, Ideal.ofBits_zero_f32, v47_flat, v45_flat]
  refine congrArg (0 + ·) ?_
  refine (sum_unflat (fun i =>
    if (val_main_v25 (F := Ideal) x i).toInt = (((cellIx k b).val : Nat) : Int)
      then val_main_v44 (F := Ideal) x lab i else 0)).trans ?_
  refine Finset.sum_congr rfl fun n _ => ?_
  simp only [v25_at, v44_at]
  exact sum_key_select k b (fun k' => binOf (prob (fun k'' => x (ix2 n k'')) k')) (fun k' => binOf_eq_ofNat _)
    (fun k' => (((hit (lab (ix1 n)) k').toNat : ℝ) : EReal)
      * (((Ideal.cmp .ogt (prob (fun k'' => x (ix2 n k'')) k') 0).toNat : ℝ) : EReal))

/-- Confidence minus accuracy at (k, b) is the specification's total of the cell (b, k). -/
theorem v50_cell (x : S500000x100.Idx → EReal) (lab : S500000.Idx → BitVec 32)
    (hp : ∀ (n : Fin 500000) (k : Fin 100), ∃ r : ℝ, prob (fun k' => x (ix2 n k')) k = (r : EReal))
    (k : Fin 100) (b : Fin 15) :
    val_main_v50 (F := Ideal) x lab (ix2 k b) = total x lab b k := by
  rw [val_main_v50_apply, val_main_v43_apply, val_main_v49_apply, idx43_cell, idx49_cell, v42_cell, v48_cell,
    Ideal.subf_def]
  refine (sum_sub_sum _ _ ?_ ?_).trans ?_
  · intro n; exact (cell_split _ (hp n k) _ _ ((hit (lab (ix1 n)) k).toNat : ℝ)).1
  · intro n; exact (cell_split _ (hp n k) _ _ ((hit (lab (ix1 n)) k).toNat : ℝ)).2.1
  · unfold total
    refine Finset.sum_congr rfl fun n _ => ?_
    exact (cell_split _ (hp n k) _ _ ((hit (lab (ix1 n)) k).toNat : ℝ)).2.2

end Cert.Ece.Ref

end
-- ==== Proof.RefFinal.lean ====
/-
  The reference's two results are the specification's.

  A class's error is the sum over the 15 bins of |confidence - accuracy| of its cells, over the number of rows; the
  scalar is the mean of the 100 class errors.  The probabilities of a finite row are real, which is all the cells need.
-/
import proofs.«153686_j5634997093213_2_alg».proof.Proof.RefCells
import proofs.«153686_j5634997093213_2_alg».proof.Proof.SpecFacts

noncomputable section

namespace Cert.Ece.Ref

open Cert.ReferenceIdeal Cert.ReferenceIdeal.Gen Cert.ReferenceIdeal.Read Idealize.ShloMosaic Idealize.ShloMosaic.ValueIdx

/-- The specification's per-class error at class k, spelt out. -/
theorem perClass_at (x : S500000x100.Idx → EReal) (lab : S500000.Idx → BitVec 32) (k : Fin 100) :
    perClass x lab (ix1 k)
      = Ideal.div (∑ b : Fin 15, max (total x lab b k) (-(total x lab b k))) (Ideal.ofBits .f32 0x48F42400#32) := rfl

/-- The specification's scalar error, spelt out. -/
theorem sce_at (x : S500000x100.Idx → EReal) (lab : S500000.Idx → BitVec 32) (i : S_.Idx) :
    sce x lab i = Ideal.div (∑ k : Fin 100, perClass x lab (ix1 k)) (Ideal.ofBits .f32 0x42C80000#32) := rfl

/-- One bin's term of a class's error: the absolute value of the cell's total. -/
theorem v51_cell (x : S500000x100.Idx → EReal) (lab : S500000.Idx → BitVec 32)
    (hp : ∀ (n : Fin 500000) (k : Fin 100), ∃ r : ℝ, prob (fun k' => x (ix2 n k')) k = (r : EReal))
    (k : Fin 100) (b : Fin 15) :
    val_main_v51 (F := Ideal) x lab (idx_main_v52 (ix1 k) b) = max (total x lab b k) (-(total x lab b k)) := by
  have e : idx_main_v52 (ix1 k) b = ix2 k b :=
    funext fun a => Fin.ext (by match a with | ⟨0, _⟩ => rfl | ⟨1, _⟩ => rfl)
  rw [e, val_main_v51_apply, v50_cell x lab hp k b, Ideal.hostAbsf_def, Ideal.absf_def]

/-- The per-class result, given that every probability is a real number. -/
theorem ref_perClass_of_real (x : S500000x100.Idx → EReal) (lab : S500000.Idx → BitVec 32)
    (hp : ∀ (n : Fin 500000) (k : Fin 100), ∃ r : ℝ, prob (fun k' => x (ix2 n k')) k = (r : EReal)) :
    val_main_v54 (F := Ideal) x lab = perClass x lab := by
  funext j
  obtain ⟨k, rfl⟩ : ∃ k : Fin 100, j = ix1 k := ⟨j 0, eq_ix1 j⟩
  rw [val_main_v54_apply, val_main_v53_apply, val_main_cst_11_apply, val_main_v52_apply, val_main_cst_10_apply,
    perClass_at]
  simp only [Ideal.hostDivf_def, Ideal.ofBits_def, Ideal.ofBits_zero_f32, zero_add]
  rw [Finset.sum_congr rfl (fun b _ => v51_cell x lab hp k b)]

/-- The scalar result, given that every probability is a real number. -/
theorem ref_sce_of_real (x : S500000x100.Idx → EReal) (lab : S500000.Idx → BitVec 32)
    (hp : ∀ (n : Fin 500000) (k : Fin 100), ∃ r : ℝ, prob (fun k' => x (ix2 n k')) k = (r : EReal)) :
    val_main_v56 (F := Ideal) x lab = sce x lab := by
  funext i
  rw [val_main_v56_apply, val_main_cst_13_apply, val_main_v55_apply, val_main_cst_12_apply,
    ref_perClass_of_real x lab hp, sce_at]
  simp only [Ideal.hostDivf_def, Ideal.ofBits_def, Ideal.ofBits_zero_f32, zero_add]
  rw [sum_idx1]

/-- The probabilities of finite logits are real. -/
theorem prob_real_of_finite (x : S500000x100.Idx → EReal) (hfin : ∀ i, ∃ r : ℝ, x i = (r : EReal))
    (n : Fin 500000) (k : Fin 100) : ∃ r : ℝ, prob (fun k' => x (ix2 n k')) k = (r : EReal) := by
  obtain ⟨p, _, _, h⟩ := prob_real (fun k' => x (ix2 n k')) (fun k' => hfin (ix2 n k')) k
  exact ⟨p, h⟩

/-- On finite logits the reference's per-class result is the specification's. -/
theorem ref_perClass (x : S500000x100.Idx → EReal) (lab : S500000.Idx → BitVec 32)
    (hfin : ∀ i, ∃ r : ℝ, x i = (r : EReal)) :
    val_main_v54 (F := Ideal) x lab = perClass x lab :=
  ref_perClass_of_real x lab (prob_real_of_finite x hfin)

/-- On finite logits the reference's scalar result is the specification's. -/
theorem ref_sce (x : S500000x100.Idx → EReal) (lab : S500000.Idx → BitVec 32)
    (hfin : ∀ i, ∃ r : ℝ, x i = (r : EReal)) :
    val_main_v56 (F := Ideal) x lab = sce x lab :=
  ref_sce_of_real x lab (prob_real_of_finite x hfin)

end Cert.Ece.Ref

end
-- ==== Proof.lean ====
/-
  The class-wise expected calibration error: the kernel and the reference compute the same two results.

  For a batch of 500000 rows of 100 logits and one label per row, a row's probabilities are the softmax of its
  logits; the probability p of class k falls in bin clamp(ceil(15 p) - 1, 0, 14), and when p > 0 the row
  contributes p - [label = k] to the cell (bin, k).  A class's error is the sum over the 15 bins of the absolute
  value of its cells, summed over all rows, divided by the number of rows; the scalar error is the mean of the 100
  class errors.

  The kernel walks the rows in 20 blocks of 25000, ten per core.  Each core zeroes a 15 x 100 table at its first
  block, adds to every cell the block's rows whose bin it is, and writes the table out after its tenth block; the
  two tables are then added, and the absolute values, the sum over the bins, the division by the number of rows and
  the mean over the classes follow.  Extended-real addition being associative and commutative, the two tables
  together hold each cell summed over all 500000 rows, whatever the order.

  The reference builds each cell as a difference of two scatter sums over all rows and classes, the probabilities
  and the label indicators, each row landing in its bin's cell.  A difference of sums is the sum of the differences
  only where no infinity meets its opposite: the precondition makes every logit a real, so the row maximum is a
  real, each exponential relative to it a positive real, their sum a positive real, and every probability a real in
  (0, 1]; all the sums are then sums of reals, and the two arrangements agree cell by cell.
-/
import proofs.«153686_j5634997093213_2_alg».proof.Defs
import proofs.«153686_j5634997093213_2_alg».proof.Proof.Gen.Kernel
import proofs.«153686_j5634997093213_2_alg».proof.Proof.Gen.Kernel.Frame
import proofs.«153686_j5634997093213_2_alg».proof.Proof.Gen.KernelIdeal
import proofs.«153686_j5634997093213_2_alg».proof.Proof.Gen.KernelIdeal.Frame
import proofs.«153686_j5634997093213_2_alg».proof.Proof.Gen.ReferenceIdeal
import proofs.«153686_j5634997093213_2_alg».proof.Proof.Gen.ReferenceIdeal.Run
import proofs.«153686_j5634997093213_2_alg».proof.Proof.Gen.ReferenceIdeal.Read
import proofs.«153686_j5634997093213_2_alg».proof.Proof.Gen.Pre_finite_inputs
import proofs.«153686_j5634997093213_2_alg».proof.Proof.Finite
import proofs.«153686_j5634997093213_2_alg».proof.Proof.Glue
import proofs.«153686_j5634997093213_2_alg».proof.Proof.RefFinal

noncomputable section

namespace Cert.Proof

open Idealize.ShloMosaic Idealize.SL.Sem

/-- The word-level kernel runs and leaves its arguments as they were. -/
theorem frame_Kernel : Cert.frame_Kernel := fun m ρ _ => Cert.Kernel.Gen.frame m ρ

/-- So does the kernel read over the extended reals. -/
theorem frame_KernelIdeal : Cert.frame_KernelIdeal := fun m ρ _ => Cert.KernelIdeal.Gen.frame m ρ

/-- The reference runs and leaves its arguments as they were. -/
theorem frame_ReferenceIdeal : Cert.frame_ReferenceIdeal := fun m ρ _ =>
  (θ_run Cert.ReferenceIdeal.defs _ _).mono (fun _ h c => (h c).2.2) (Cert.ReferenceIdeal.Value.run (F := Ideal) m ρ)

/-- The kernel's text was read over the extended reals as it stands. -/
theorem preserves : Cert.preserves_Kernel_KernelIdeal := trivial

/-- On finite logits both programs end with the specification's scalar error and per-class errors. -/
theorem algebraic : Cert.algebraic_KernelIdeal_ReferenceIdeal := by
  intro m ρ m' ρ' hpre hagree
  have hfin : ∀ c : Dev Cert.KernelIdeal.nD, ∀ i, ∃ r : ℝ, Cert.Ece.Kern.argX m c i = (r : EReal) :=
    fun c => Cert.Ece.real_of_pre (Cert.Ece.Kern.argX m c) (Cert.Ece.Kern.argL m c) (hpre c)
  refine ⟨fun c => Cert.Ece.sce (Cert.Ece.Kern.argX m c) (Cert.Ece.Kern.argL m c),
    fun c => Cert.Ece.perClass (Cert.Ece.Kern.argX m c) (Cert.Ece.Kern.argL m c), Cert.Ece.Kern.kernel_run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v56_eq, (hagree c).1, (hagree c).2]
    exact Cert.Ece.Ref.ref_sce _ _ (hfin c)
  · rw [Cert.ReferenceIdeal.Read.val_main_v54_eq, (hagree c).1, (hagree c).2]
    exact Cert.Ece.Ref.ref_perClass _ _ (hfin c)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
